-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x128 : Shape := ⟨2, ![1, 128]⟩
abbrev S2000x128 : Shape := ⟨2, ![2000, 128]⟩
abbrev S1600000x128 : Shape := ⟨2, ![1600000, 128]⟩
abbrev S100000x1 : Shape := ⟨2, ![100000, 1]⟩
abbrev S2000x1 : Shape := ⟨2, ![2000, 1]⟩

abbrev nBuf : Space → Nat
  | .hbm => 62
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S128x128, .f32⟩
  | .hbm, ⟨27, _⟩ => ⟨S1x128, .f32⟩
  | .hbm, ⟨28, _⟩ => ⟨S100000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x1, .f32⟩
  | .hbm, ⟨43, _⟩ => ⟨S100000x128, .f32⟩
  | .hbm, ⟨44, _⟩ => ⟨S128x128, .f32⟩
  | .hbm, ⟨45, _⟩ => ⟨S1x128, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S100000x1, .f32⟩
  | .hbm, ⟨61, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x1, .f32⟩
  | .local _ .vmem, ⟨9, _⟩ => ⟨S2000x1, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x1, .f32⟩
  | .local _ .vmem, ⟨21, _⟩ => ⟨S2000x1, .f32⟩
  | .local _ .vmem, ⟨22, _⟩ => ⟨S2000x128, .f32⟩
  | .local _ .vmem, ⟨23, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S100000x128 : S_.BroadcastsInDim S100000x128 (![] : Fin 0 → Fin S100000x128.rank)
  shapeCasts_S100000_S100000x1 : S100000.ShapeCasts S100000x1
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v27) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v29) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v40) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x128 : Shape := ⟨2, ![1, 128]⟩
abbrev S1600000x128 : Shape := ⟨2, ![1600000, 128]⟩
abbrev S100000x1 : Shape := ⟨2, ![100000, 1]⟩

abbrev nBuf : Space → Nat
  | .hbm => 83
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S128x128, .f32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .i1⟩
  | .hbm, ⟨50, _⟩ => ⟨S_, .f32⟩
  | .hbm, ⟨51, _⟩ => ⟨S100000x128, .f32⟩
  | .hbm, ⟨52, _⟩ => ⟨S100000x128, .i1⟩
  | .hbm, ⟨53, _⟩ => ⟨S_, .f32⟩
  | .hbm, ⟨54, _⟩ => ⟨S_, .f32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S_, .f32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S128x128, .f32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .f32⟩
  | .hbm, ⟨76, _⟩ => ⟨S_, .f32⟩
  | .hbm, ⟨77, _⟩ => ⟨S100000x128, .f32⟩
  | .hbm, ⟨78, _⟩ => ⟨S1600000x1, .i32⟩
  | .hbm, ⟨79, _⟩ => ⟨S100000x128, .f32⟩
  | .hbm, ⟨80, _⟩ => ⟨S100000x1, .f32⟩
  | .hbm, ⟨81, _⟩ => ⟨S100000x128, .f32⟩
  | .hbm, ⟨82, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call1_cst : Ref sig .tc := ⟨.hbm, 47, rfl⟩
abbrev main_call1_v0 : Ref sig .tc := ⟨.hbm, 48, rfl⟩
abbrev main_call1_v1 : Ref sig .tc := ⟨.hbm, 49, rfl⟩
abbrev main_call1_cst_0 : Ref sig .tc := ⟨.hbm, 50, rfl⟩
abbrev main_call1_v2 : Ref sig .tc := ⟨.hbm, 51, rfl⟩
abbrev main_call1_v3 : Ref sig .tc := ⟨.hbm, 52, rfl⟩
abbrev main_call1_cst_1 : Ref sig .tc := ⟨.hbm, 53, rfl⟩
abbrev main_call1_call0_v0 : Ref sig .tc := ⟨.hbm, 54, rfl⟩
abbrev main_call1_call0_v1 : Ref sig .tc := ⟨.hbm, 55, rfl⟩
abbrev main_call1_v4 : Ref sig .tc := ⟨.hbm, 56, rfl⟩
abbrev main_call1_v5 : Ref sig .tc := ⟨.hbm, 57, rfl⟩
abbrev main_call1_cst_2 : Ref sig .tc := ⟨.hbm, 58, rfl⟩
abbrev main_call1_v6 : Ref sig .tc := ⟨.hbm, 59, rfl⟩
abbrev main_call1_v7 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_6 : Ref sig .tc := ⟨.hbm, 67, rfl⟩
abbrev main_v37 : Ref sig .tc := ⟨.hbm, 68, rfl⟩
abbrev main_v38 : Ref sig .tc := ⟨.hbm, 69, rfl⟩
abbrev main_c_7 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_8 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Spec.lean ====
import proofs.«140958_j9947144258104_1_alg».proof.Proof.Gen.ReferenceIdeal

/-!
# The function both programs compute

A two-layer graph convolution with mean aggregation.  From the edge list `ei` (row 0: the node each edge
sums into; row 1: the node it reads) and node features `x`:

* `degInv ei` — per node, one over the number of edges summing into it, and zero where there is none;
* `lin x wt brow` — the affine map `x · wt + brow`, the bias row repeated down the rows;
* `agg h ei` — row `n` is the sum over the edges `e` with `row e = n` of row `col e` of `h`
  (a gather of rows followed by a scatter-add into zeros);
* `norm a dcol` — every row of `a` scaled by that row's entry of the column `dcol`;
* `elu z` — `z` where it is positive, `exp z − 1` elsewhere;
* `final` — `norm (agg (lin (elu (norm (agg (lin x W1ᵀ b1)) d)) W2ᵀ b2)) d` with `d = degInv ei`.

Every stage is spelt with the host operations of the reference program, so that the reference's run ends at
`final` by unfolding alone.
-/

noncomputable section

namespace Cert.Spec

open Idealize.ShloMosaic Cert.ReferenceIdeal Cert.ReferenceIdeal.Facts₀

variable {F : FTy → Type} [FloatOps F] [Cert.ReferenceIdeal.Facts₀]

open Facts₀ Facts

/-- Row `r` of the edge list as a vector of length 1600000: row 0. -/
def edgeRow0 (ei : (⟨S2x1600000, .i32⟩ : BufTy).Contents (Elt F)) : (⟨S1600000, .i32⟩ : BufTy).Contents (Elt F) :=
  shapeCast S1600000 (extractStridedSlice S1x1600000 ![0, 0] ei slices_S2x1600000_S1x1600000_0_0) shapeCasts_S1x1600000_S1600000

/-- Row 1 of the edge list as a vector of length 1600000. -/
def edgeRow1 (ei : (⟨S2x1600000, .i32⟩ : BufTy).Contents (Elt F)) : (⟨S1600000, .i32⟩ : BufTy).Contents (Elt F) :=
  shapeCast S1600000 (extractStridedSlice S1x1600000 ![1, 0] ei slices_S2x1600000_S1x1600000_1_0) shapeCasts_S1x1600000_S1600000

/-- The target node of every edge, as the column of scatter indices. -/
def rowIx (ei : (⟨S2x1600000, .i32⟩ : BufTy).Contents (Elt F)) : (⟨S1600000x1, .i32⟩ : BufTy).Contents (Elt F) :=
  broadcastInDim S1600000x1 ![0] bcast_S1600000_S1600000x1_0 (edgeRow0 ei)

/-- The source node of every edge, a negative number counted from the end, as the column of gather indices. -/
def colIx (ei : (⟨S2x1600000, .i32⟩ : BufTy).Contents (Elt F)) : (⟨S1600000x1, .i32⟩ : BufTy).Contents (Elt F) :=
  broadcastInDim S1600000x1 ![0] bcast_S1600000_S1600000x1_0
    (select (cmpi .slt (edgeRow1 ei) (broadcastInDim S1600000 ![] bcast_S_S1600000 (constantI S_ 32 0#32)))
      (addi (edgeRow1 ei) (broadcastInDim S1600000 ![] bcast_S_S1600000 (constantI S_ 32 100000#32)))
      (edgeRow1 ei))

/-- The number of edges summing into each node. -/
def deg (ei : (⟨S2x1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (rowIx ei)
    (broadcastInDim S1600000 ![] bcast_S_S1600000 (constant S_ .f32 0x3F800000#32))

/-- One over the degree where it is positive, zero elsewhere. -/
def degInv (ei : (⟨S2x1600000, .i32⟩ : BufTy).Contents (Elt F)) : (⟨S100000, .f32⟩ : BufTy).Contents (Elt F) :=
  select (cmpf .ogt (deg ei) (broadcastInDim S100000 ![] bcast_S_S100000 (constant S_ .f32 0x00000000#32)))
    (Host.divf (broadcastInDim S100000 ![] bcast_S_S100000 (constant S_ .f32 0x3F800000#32)) (deg ei))
    (broadcastInDim S100000 ![] bcast_S_S100000 (id (constant S_ .f32 0x00000000#32)))

/-- `x · wt` plus the bias row on every row. -/
def lin (x : (⟨S100000x128, .f32⟩ : BufTy).Contents (Elt F)) (wt : (⟨S128x128, .f32⟩ : BufTy).Contents (Elt F))
    (brow : (⟨S1x128, .f32⟩ : BufTy).Contents (Elt F)) : (⟨S100000x128, .f32⟩ : BufTy).Contents (Elt F) :=
  addf (Host.dotGeneral dot_S100000x128_S128x128_S100000x128_1_0_0_1_n_n none x wt)
    (broadcastInDim S100000x128 ![0, 1] bcast_S1x128_S100000x128_0_1 brow)

/-- The transposed weight matrix. -/
def wT (w : (⟨S128x128, .f32⟩ : BufTy).Contents (Elt F)) : (⟨S128x128, .f32⟩ : BufTy).Contents (Elt F) :=
  transpose S128x128 [1, 0] w transposes_S128x128_S128x128_1_0

/-- The bias as a one-row matrix. -/
def bRow (b : (⟨S128, .f32⟩ : BufTy).Contents (Elt F)) : (⟨S1x128, .f32⟩ : BufTy).Contents (Elt F) :=
  broadcastInDim S1x128 ![1] bcast_S128_S1x128_1 b

/-- Sum, into row `row e`, of row `col e` of `h`, over all edges `e`. -/
def agg (h : (⟨S100000x128, .f32⟩ : BufTy).Contents (Elt F)) (ei : (⟨S2x1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (rowIx ei)
    (Host.gather gather_S100000x128_S1600000x1_S1600000x128_1_0_n_n_0_1_1128 h (colIx ei))

/-- A vector of length 100000 as a one-column matrix. -/
def dCol (d : (⟨S100000, .f32⟩ : BufTy).Contents (Elt F)) : (⟨S100000x1, .f32⟩ : BufTy).Contents (Elt F) :=
  broadcastInDim S100000x1 ![0] bcast_S100000_S100000x1_0 d

/-- Every row of `a` scaled by that row's entry of the column. -/
def norm (a : (⟨S100000x128, .f32⟩ : BufTy).Contents (Elt F)) (dcol : (⟨S100000x1, .f32⟩ : BufTy).Contents (Elt F)) :
    (⟨S100000x128, .f32⟩ : BufTy).Contents (Elt F) :=
  mulf a (broadcastInDim S100000x128 ![0, 1] bcast_S100000x1_S100000x128_0_1 dcol)

/-- `z` where positive, `1 · expm1 z'` elsewhere, `z'` being `z` with its positive entries zeroed. -/
def elu (z : (⟨S100000x128, .f32⟩ : BufTy).Contents (Elt F)) : (⟨S100000x128, .f32⟩ : BufTy).Contents (Elt F) :=
  select (cmpf .ogt z (broadcastInDim S100000x128 ![] bcast_S_S100000x128 (constant S_ .f32 0x00000000#32)))
    z
    (mulf (broadcastInDim S100000x128 ![] bcast_S_S100000x128 (constant S_ .f32 0x3F800000#32))
      (Host.expm1
        (select (cmpf .ogt z (broadcastInDim S100000x128 ![] bcast_S_S100000x128 (constant S_ .f32 0x00000000#32)))
          (broadcastInDim S100000x128 ![] bcast_S_S100000x128 (id (constant S_ .f32 0x00000000#32)))
          z)))

/-- The hidden layer: normalized aggregate of the first affine map, through `elu`. -/
def hidden (x : (⟨S100000x128, .f32⟩ : BufTy).Contents (Elt F)) (ei : (⟨S2x1600000, .i32⟩ : BufTy).Contents (Elt F))
    (w1 : (⟨S128x128, .f32⟩ : BufTy).Contents (Elt F)) (b1 : (⟨S128, .f32⟩ : BufTy).Contents (Elt F)) :
    (⟨S100000x128, .f32⟩ : BufTy).Contents (Elt F) :=
  elu (norm (agg (lin x (wT w1) (bRow b1)) ei) (dCol (degInv ei)))

/-- The network's output. -/
def final (x : (⟨S100000x128, .f32⟩ : BufTy).Contents (Elt F)) (ei : (⟨S2x1600000, .i32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F)) :
    (⟨S100000x128, .f32⟩ : BufTy).Contents (Elt F) :=
  norm (agg (lin (hidden x ei w1 b1) (wT w2) (bRow b2)) ei) (dCol (degInv ei))

end Cert.Spec

end
-- ==== Proof.RefRun.lean ====
import proofs.«140958_j9947144258104_1_alg».proof.Proof.Gen.ReferenceIdeal
import proofs.«140958_j9947144258104_1_alg».proof.Proof.Spec
import Idealize.ShloMosaic.Lib.StableHlo.Run

/-!
# The reference program's run

The reference's @main is a straight line of 77 host operations once its calls are unfolded: its own 59, the three of
the degree's `where` at the first call, and the fifteen of `elu` (with its two inner `where`s) at the second.
`ops` lists them in order; `main_eq` says @main is that line; `out_eq` reads the line's fold at the result
buffer as the composed function `Cert.Spec.final` of the six arguments; `run` states the whole: every weakly
fair execution terminates with the result buffer at `Cert.Spec.final` of the arguments' launch contents and the
arguments unchanged.
-/

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- @main's 77 operations, in order, the called functions' bodies at their call sites over the calls' own buffers. -/
abbrev ops : List (HloOp τ sig (Elt F)) :=
  [
    StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_cst (constant S_ .f32 0x3F800000#32),
    StableHlo.unary main_cst main_v4 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v5 (broadcastInDim S100000 ![] bcast_S_S100000 : (⟨S_, .f32⟩ : BufTy).Contents (Elt F) → (⟨S100000, .f32⟩ : BufTy).Contents (Elt F)),
    StableHlo.unary main_v1 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x00000000#32),
    StableHlo.unary main_cst_1 main_v8 (broadcastInDim S100000 ![] bcast_S_S100000 : (⟨S_, .f32⟩ : BufTy).Contents (Elt F) → (⟨S100000, .f32⟩ : BufTy).Contents (Elt F)),
    StableHlo.binary main_v7 main_v8 main_v9 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x3F800000#32),
    StableHlo.unary main_cst_2 main_v10 (broadcastInDim S100000 ![] bcast_S_S100000 : (⟨S_, .f32⟩ : BufTy).Contents (Elt F) → (⟨S100000, .f32⟩ : BufTy).Contents (Elt F)),
    StableHlo.binary main_v10 main_v7 main_v11 (Host.divf : (⟨S100000, .f32⟩ : BufTy).Contents (Elt F) → (⟨S100000, .f32⟩ : BufTy).Contents (Elt F) → (⟨S100000, .f32⟩ : BufTy).Contents (Elt F)),
    StableHlo.nullary main_cst_3 (constant S_ .f32 0x00000000#32),
    TRef.unary (.of main_cst_3 : TRef sig ⟨S_, .f32⟩) main_call0.v0 id,
    TRef.unary main_call0.v0 main_call0.v1 (broadcastInDim S100000 ![] bcast_S_S100000),
    TRef.ternary (.of main_v9 : TRef sig ⟨S100000, .i1⟩) (.of main_v11 : TRef sig ⟨S100000, .f32⟩) main_call0.v1 main_call0.v2 select,
    StableHlo.unary main_arg2 main_v13 ((transpose S128x128 [1, 0] · transposes_S128x128_S128x128_1_0) : (⟨S128x128, .f32⟩ : BufTy).Contents (Elt F) → (⟨S128x128, .f32⟩ : BufTy).Contents (Elt F)),
    StableHlo.binary main_arg0 main_v13 main_v14 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg3 main_v15 (broadcastInDim S1x128 ![1] bcast_S128_S1x128_1 : (⟨S128, .f32⟩ : BufTy).Contents (Elt F) → (⟨S1x128, .f32⟩ : BufTy).Contents (Elt F)),
    StableHlo.unary main_v15 main_v16 (broadcastInDim S100000x128 ![0, 1] bcast_S1x128_S100000x128_0_1 : (⟨S1x128, .f32⟩ : BufTy).Contents (Elt F) → (⟨S100000x128, .f32⟩ : BufTy).Contents (Elt F)),
    StableHlo.binary main_v14 main_v16 main_v17 (addf : (⟨S100000x128, .f32⟩ : BufTy).Contents (Elt F) → (⟨S100000x128, .f32⟩ : BufTy).Contents (Elt F) → (⟨S100000x128, .f32⟩ : BufTy).Contents (Elt F)),
    StableHlo.nullary main_c (constantI S_ 32 0#32),
    StableHlo.unary main_c main_v18 (broadcastInDim S1600000 ![] bcast_S_S1600000 : (⟨S_, .i32⟩ : BufTy).Contents (Elt F) → (⟨S1600000, .i32⟩ : BufTy).Contents (Elt F)),
    StableHlo.binary main_v3 main_v18 main_v19 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v20 (broadcastInDim S1600000 ![] bcast_S_S1600000 : (⟨S_, .i32⟩ : BufTy).Contents (Elt F) → (⟨S1600000, .i32⟩ : BufTy).Contents (Elt F)),
    StableHlo.binary main_v3 main_v20 main_v21 (addi : (⟨S1600000, .i32⟩ : BufTy).Contents (Elt F) → (⟨S1600000, .i32⟩ : BufTy).Contents (Elt F) → (⟨S1600000, .i32⟩ : BufTy).Contents (Elt F)),
    StableHlo.ternary main_v19 main_v21 main_v3 main_v22 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v22 main_v23 (broadcastInDim S1600000x1 ![0] bcast_S1600000_S1600000x1_0 : (⟨S1600000, .i32⟩ : BufTy).Contents (Elt F) → (⟨S1600000x1, .i32⟩ : BufTy).Contents (Elt F)),
    StableHlo.binary main_v17 main_v23 main_v24 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_5 (constant S_ .f32 0x00000000#32),
    StableHlo.unary main_cst_5 main_v25 (broadcastInDim S100000x128 ![] bcast_S_S100000x128 : (⟨S_, .f32⟩ : BufTy).Contents (Elt F) → (⟨S100000x128, .f32⟩ : BufTy).Contents (Elt F)),
    StableHlo.unary main_v1 main_v26 (broadcastInDim S1600000x1 ![0] bcast_S1600000_S1600000x1_0 : (⟨S1600000, .i32⟩ : BufTy).Contents (Elt F) → (⟨S1600000x1, .i32⟩ : BufTy).Contents (Elt F)),
    StableHlo.ternary main_v25 main_v26 main_v24 main_v27 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v12 main_v28 (broadcastInDim S100000x1 ![0] bcast_S100000_S100000x1_0 : (⟨S100000, .f32⟩ : BufTy).Contents (Elt F) → (⟨S100000x1, .f32⟩ : BufTy).Contents (Elt F)),
    StableHlo.unary main_v28 main_v29 (broadcastInDim S100000x128 ![0, 1] bcast_S100000x1_S100000x128_0_1 : (⟨S100000x1, .f32⟩ : BufTy).Contents (Elt F) → (⟨S100000x128, .f32⟩ : BufTy).Contents (Elt F)),
    StableHlo.binary main_v27 main_v29 main_v30 (mulf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v30 : TRef sig ⟨S100000x128, .f32⟩) main_call1.v0 main_call1.v1 (cmpf .ogt),
    TRef.nullary main_call1.cst_0 (constant S_ .f32 0x00000000#32),
    TRef.unary main_call1.cst_0 main_call1.v2 (broadcastInDim S100000x128 ![] bcast_S_S100000x128),
    TRef.binary (.of main_v30 : TRef sig ⟨S100000x128, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x128 ![] bcast_S_S100000x128),
    TRef.ternary main_call1.v3 main_call1.call0.v1 (.of main_v30 : TRef sig ⟨S100000x128, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S100000x128 ![] bcast_S_S100000x128),
    TRef.binary main_call1.v6 main_call1.v5 main_call1.v7 mulf,
    TRef.ternary main_call1.v1 (.of main_v30 : TRef sig ⟨S100000x128, .f32⟩) main_call1.v7 main_call1.call1.v0 select,
    StableHlo.unary main_arg4 main_v32 ((transpose S128x128 [1, 0] · transposes_S128x128_S128x128_1_0) : (⟨S128x128, .f32⟩ : BufTy).Contents (Elt F) → (⟨S128x128, .f32⟩ : BufTy).Contents (Elt F)),
    StableHlo.binary main_v31 main_v32 main_v33 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v34 (broadcastInDim S1x128 ![1] bcast_S128_S1x128_1 : (⟨S128, .f32⟩ : BufTy).Contents (Elt F) → (⟨S1x128, .f32⟩ : BufTy).Contents (Elt F)),
    StableHlo.unary main_v34 main_v35 (broadcastInDim S100000x128 ![0, 1] bcast_S1x128_S100000x128_0_1 : (⟨S1x128, .f32⟩ : BufTy).Contents (Elt F) → (⟨S100000x128, .f32⟩ : BufTy).Contents (Elt F)),
    StableHlo.binary main_v33 main_v35 main_v36 (addf : (⟨S100000x128, .f32⟩ : BufTy).Contents (Elt F) → (⟨S100000x128, .f32⟩ : BufTy).Contents (Elt F) → (⟨S100000x128, .f32⟩ : BufTy).Contents (Elt F)),
    StableHlo.nullary main_c_6 (constantI S_ 32 0#32),
    StableHlo.unary main_c_6 main_v37 (broadcastInDim S1600000 ![] bcast_S_S1600000 : (⟨S_, .i32⟩ : BufTy).Contents (Elt F) → (⟨S1600000, .i32⟩ : BufTy).Contents (Elt F)),
    StableHlo.binary main_v3 main_v37 main_v38 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32),
    StableHlo.unary main_c_7 main_v39 (broadcastInDim S1600000 ![] bcast_S_S1600000 : (⟨S_, .i32⟩ : BufTy).Contents (Elt F) → (⟨S1600000, .i32⟩ : BufTy).Contents (Elt F)),
    StableHlo.binary main_v3 main_v39 main_v40 (addi : (⟨S1600000, .i32⟩ : BufTy).Contents (Elt F) → (⟨S1600000, .i32⟩ : BufTy).Contents (Elt F) → (⟨S1600000, .i32⟩ : BufTy).Contents (Elt F)),
    StableHlo.ternary main_v38 main_v40 main_v3 main_v41 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v41 main_v42 (broadcastInDim S1600000x1 ![0] bcast_S1600000_S1600000x1_0 : (⟨S1600000, .i32⟩ : BufTy).Contents (Elt F) → (⟨S1600000x1, .i32⟩ : BufTy).Contents (Elt F)),
    StableHlo.binary main_v36 main_v42 main_v43 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_8 (constant S_ .f32 0x00000000#32),
    StableHlo.unary main_cst_8 main_v44 (broadcastInDim S100000x128 ![] bcast_S_S100000x128 : (⟨S_, .f32⟩ : BufTy).Contents (Elt F) → (⟨S100000x128, .f32⟩ : BufTy).Contents (Elt F)),
    StableHlo.unary main_v1 main_v45 (broadcastInDim S1600000x1 ![0] bcast_S1600000_S1600000x1_0 : (⟨S1600000, .i32⟩ : BufTy).Contents (Elt F) → (⟨S1600000x1, .i32⟩ : BufTy).Contents (Elt F)),
    StableHlo.ternary main_v44 main_v45 main_v43 main_v46 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v12 main_v47 (broadcastInDim S100000x1 ![0] bcast_S100000_S100000x1_0 : (⟨S100000, .f32⟩ : BufTy).Contents (Elt F) → (⟨S100000x1, .f32⟩ : BufTy).Contents (Elt F)),
    StableHlo.unary main_v47 main_v48 (broadcastInDim S100000x128 ![0, 1] bcast_S100000x1_S100000x128_0_1 : (⟨S100000x1, .f32⟩ : BufTy).Contents (Elt F) → (⟨S100000x128, .f32⟩ : BufTy).Contents (Elt F)),
    StableHlo.binary main_v46 main_v48 main_v49 (mulf : (⟨S100000x128, .f32⟩ : BufTy).Contents (Elt F) → (⟨S100000x128, .f32⟩ : BufTy).Contents (Elt F) → (⟨S100000x128, .f32⟩ : BufTy).Contents (Elt F)) ]

set_option maxRecDepth 4096 in
set_option maxHeartbeats 1600000 in
/-- @main is that straight line: its two windows and the functions' definitions unfolded at their calls, both sides
    are one chain of steps once sequencing is re-associated. -/
theorem main_eq (c : Dev nD) : main (F := F) c = seq ops := by
  simp only [main, main_part0, main_part1, fn_where.body, fn_elu.body, fn_where_0.body, fn_where_1.body, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    unary_bufs_sub .., reshape_bufs_sub .., unary_bufs_sub .., reshape_bufs_sub .., nullary_bufs_sub .., unary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., unary_bufs_sub .., unary_bufs_sub .., binary_bufs_sub ..⟩

attribute [local irreducible] Host.scatterAdd Host.gather Host.expm1 in
set_option maxRecDepth 8192 in
set_option maxHeartbeats 1600000 in
/-- The line's fold at the result buffer is `Cert.Spec.final` of the arguments' contents: each operation's result at
    its own buffer is its function of its operands' contents, at any other buffer what was there; composed along the
    line this is the two-layer graph convolution, stage by stage as `Cert.Spec` spells it. The scatter-add, the
    gather and `expm1` stay folded (the matrix product is the float instance's own): the equation never looks inside them. -/
theorem out_eq (V : Valuation τ sig (Elt F)) :
    after ops V (main_v49 : DevRef τ sig)
      = Cert.Spec.final (V (main_arg0 : DevRef τ sig)) (V (main_arg1 : DevRef τ sig)) (V (main_arg2 : DevRef τ sig)) (V (main_arg3 : DevRef τ sig)) (V (main_arg4 : DevRef τ sig)) (V (main_arg5 : DevRef τ sig)) := by
  after_results_simp
  rfl

set_option maxRecDepth 8192 in
set_option maxHeartbeats 1600000 in
/-- No operation of the line writes argument 0's buffer. -/
theorem arg0_eq (V : Valuation τ sig (Elt F)) :
    after ops V (main_arg0 : DevRef τ sig) = V (main_arg0 : DevRef τ sig) := by
  after_results_simp

set_option maxRecDepth 8192 in
set_option maxHeartbeats 1600000 in
/-- No operation of the line writes argument 1's buffer. -/
theorem arg1_eq (V : Valuation τ sig (Elt F)) :
    after ops V (main_arg1 : DevRef τ sig) = V (main_arg1 : DevRef τ sig) := by
  after_results_simp

set_option maxRecDepth 8192 in
set_option maxHeartbeats 1600000 in
/-- No operation of the line writes argument 2's buffer. -/
theorem arg2_eq (V : Valuation τ sig (Elt F)) :
    after ops V (main_arg2 : DevRef τ sig) = V (main_arg2 : DevRef τ sig) := by
  after_results_simp

set_option maxRecDepth 8192 in
set_option maxHeartbeats 1600000 in
/-- No operation of the line writes argument 3's buffer. -/
theorem arg3_eq (V : Valuation τ sig (Elt F)) :
    after ops V (main_arg3 : DevRef τ sig) = V (main_arg3 : DevRef τ sig) := by
  after_results_simp

set_option maxRecDepth 8192 in
set_option maxHeartbeats 1600000 in
/-- No operation of the line writes argument 4's buffer. -/
theorem arg4_eq (V : Valuation τ sig (Elt F)) :
    after ops V (main_arg4 : DevRef τ sig) = V (main_arg4 : DevRef τ sig) := by
  after_results_simp

set_option maxRecDepth 8192 in
set_option maxHeartbeats 1600000 in
/-- No operation of the line writes argument 5's buffer. -/
theorem arg5_eq (V : Valuation τ sig (Elt F)) :
    after ops V (main_arg5 : DevRef τ sig) = V (main_arg5 : DevRef τ sig) := by
  after_results_simp

/-- On every device, for any float values, from any memory with zero counters: every weakly fair execution of
    @main terminates with the result buffer at `Cert.Spec.final` of the arguments' launch contents and the six
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49) = Cert.Spec.final (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v49).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _)⟩)
    (run_seq scopedRefs_eq scopedSems_eq defs main (fun _ => ops) main_eq (fun _ => ops_sub) m ρ)

end Cert.ReferenceIdeal.RefValue

end
-- ==== Proof.KRun.lean ====
import proofs.«140958_j9947144258104_1_alg».proof.Proof.Gen.KernelIdeal.Frame

/-!
# The kernel program's run, with its result named

The program is four pipelined regions among stretches of host operations.  Its generated frame proof follows
the contents of every buffer from the launch through those ten segments; the last boundary's contents are
`Gen.W10`.  Here the same run is stated with the result buffer's final contents kept: it ends at
`Gen.W10 m ρ c main_v42`, and the argument arrays end as launched.
-/

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; the result buffer ends at the
    last segment boundary's contents and the six argument arrays end as launched. -/
theorem run_valued : θ_run defs (onTc (τ := τ) (main (F := F))) ⟨m, fun _ => 0, ρ⟩ (fun r => ∀ c : Dev nD,
      r.2.mem ((c.tc : Thread nD τ).loc main_v42) = W10 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v42 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.KRun

end
-- ==== Proof.KFold.lean ====
import proofs.«140958_j9947144258104_1_alg».proof.Proof.Gen.KernelIdeal.Frame
import proofs.«140958_j9947144258104_1_alg».proof.Proof.Gen.ReferenceIdeal
import proofs.«140958_j9947144258104_1_alg».proof.Proof.Spec
import Idealize.ShloMosaic.Lib.StableHlo.Run
import Idealize.ShloMosaic.PureOps.Ideal

/-!
# The kernel program's host stretches read back

Between its four regions the kernel program's @main runs stretches of host operations.  Each stretch is read here as
a function of the buffer contents it starts from: the two rows of the edge list, the inverse degree, the transposed
weights and the bias rows, and — after each linear region — the gather of rows followed by the scatter-add, which is
`Cert.Spec.agg`.  Buffers written in an earlier stretch are carried boundary by boundary to the stretch that reads
them: a stretch leaves a buffer it does not write as it was, and so does a region whose arrays do not include it.
-/

noncomputable section

namespace Cert.KernelIdeal.KFold

open Cert.KernelIdeal Cert.KernelIdeal.Gen Idealize.ShloMosaic Idealize.ShloMosaic.TcCoe Idealize.SL.Sem Idealize.ShloMosaic.StableHlo

variable {F : FTy → Type} [FloatOps F]

/-- A bias vector as a one-row matrix, by reshaping. -/
def bRowK (b : (⟨S128, .f32⟩ : BufTy).Contents (Elt F)) : (⟨S1x128, .f32⟩ : BufTy).Contents (Elt F) :=
  shapeCast S1x128 b Cert.KernelIdeal.Facts₀.shapeCasts_S128_S1x128

/-- A vector of length 100000 as a one-column matrix, by reshaping. -/
def dColK (d : (⟨S100000, .f32⟩ : BufTy).Contents (Elt F)) : (⟨S100000x1, .f32⟩ : BufTy).Contents (Elt F) :=
  shapeCast S100000x1 d Cert.KernelIdeal.Facts₀.shapeCasts_S100000_S100000x1

/-! ## Each stretch from arbitrary contents `U` -/

section Stretches

variable (U : Valuation τ sig (Elt F))

/-! ### The first stretch: the edge rows, the degree's comparison and quotient -/

theorem s0_v1 : after hostOps0 U (Proc.devRef .tc main_v1) = Cert.Spec.edgeRow0 (U (Proc.devRef .tc main_arg1)) := by
  after_results <;> rfl

theorem s0_v3 : after hostOps0 U (Proc.devRef .tc main_v3) = Cert.Spec.edgeRow1 (U (Proc.devRef .tc main_arg1)) := by
  after_results <;> rfl

attribute [local irreducible] Host.scatterAdd in
theorem s0_v9 : after hostOps0 U (Proc.devRef .tc main_v9)
    = cmpf .ogt (Cert.Spec.deg (U (Proc.devRef .tc main_arg1)))
        (broadcastInDim Cert.ReferenceIdeal.S100000 ![] Cert.ReferenceIdeal.Facts₀.bcast_S_S100000 (constant Cert.ReferenceIdeal.S_ .f32 0x00000000#32)) := by
  after_results <;> rfl

attribute [local irreducible] Host.scatterAdd in
theorem s0_v11 : after hostOps0 U (Proc.devRef .tc main_v11)
    = Host.divf (broadcastInDim Cert.ReferenceIdeal.S100000 ![] Cert.ReferenceIdeal.Facts₀.bcast_S_S100000 (constant Cert.ReferenceIdeal.S_ .f32 0x3F800000#32))
        (Cert.Spec.deg (U (Proc.devRef .tc main_arg1))) := by
  after_results <;> rfl

theorem s0_cst_3 : after hostOps0 U (Proc.devRef .tc main_cst_3) = constant Cert.ReferenceIdeal.S_ .f32 0x00000000#32 := by
  after_results <;> rfl

theorem n0_arg0 : after hostOps0 U (Proc.devRef .tc main_arg0) = U (Proc.devRef .tc main_arg0) := by
  after_results <;> rfl

theorem n0_arg2 : after hostOps0 U (Proc.devRef .tc main_arg2) = U (Proc.devRef .tc main_arg2) := by
  after_results <;> rfl

theorem n0_arg3 : after hostOps0 U (Proc.devRef .tc main_arg3) = U (Proc.devRef .tc main_arg3) := by
  after_results <;> rfl

theorem n0_arg4 : after hostOps0 U (Proc.devRef .tc main_arg4) = U (Proc.devRef .tc main_arg4) := by
  after_results <;> rfl

theorem n0_arg5 : after hostOps0 U (Proc.devRef .tc main_arg5) = U (Proc.devRef .tc main_arg5) := by
  after_results <;> rfl

/-! ### The second stretch: the inverse degree -/

theorem s01_v12 (ei : (⟨Cert.ReferenceIdeal.S2x1600000, .i32⟩ : BufTy).Contents (Elt F))
    (h9 : U (Proc.devRef .tc main_v9) = cmpf .ogt (Cert.Spec.deg ei)
        (broadcastInDim Cert.ReferenceIdeal.S100000 ![] Cert.ReferenceIdeal.Facts₀.bcast_S_S100000 (constant Cert.ReferenceIdeal.S_ .f32 0x00000000#32)))
    (h11 : U (Proc.devRef .tc main_v11) = Host.divf (broadcastInDim Cert.ReferenceIdeal.S100000 ![] Cert.ReferenceIdeal.Facts₀.bcast_S_S100000 (constant Cert.ReferenceIdeal.S_ .f32 0x3F800000#32))
        (Cert.Spec.deg ei))
    (h3 : U (Proc.devRef .tc main_cst_3) = constant Cert.ReferenceIdeal.S_ .f32 0x00000000#32) :
    after hostOps0_1 U (Proc.devRef .tc main_v12) = Cert.Spec.degInv ei := by
  after_results
  rw [h9, h11, h3]
  rfl

theorem n01_v1 : after hostOps0_1 U (Proc.devRef .tc main_v1) = U (Proc.devRef .tc main_v1) := by
  after_results <;> rfl

theorem n01_v3 : after hostOps0_1 U (Proc.devRef .tc main_v3) = U (Proc.devRef .tc main_v3) := by
  after_results <;> rfl

theorem n01_arg0 : after hostOps0_1 U (Proc.devRef .tc main_arg0) = U (Proc.devRef .tc main_arg0) := by
  after_results <;> rfl

theorem n01_arg2 : after hostOps0_1 U (Proc.devRef .tc main_arg2) = U (Proc.devRef .tc main_arg2) := by
  after_results <;> rfl

theorem n01_arg3 : after hostOps0_1 U (Proc.devRef .tc main_arg3) = U (Proc.devRef .tc main_arg3) := by
  after_results <;> rfl

theorem n01_arg4 : after hostOps0_1 U (Proc.devRef .tc main_arg4) = U (Proc.devRef .tc main_arg4) := by
  after_results <;> rfl

theorem n01_arg5 : after hostOps0_1 U (Proc.devRef .tc main_arg5) = U (Proc.devRef .tc main_arg5) := by
  after_results <;> rfl

/-! ### The third stretch: the first layer's transposed weights and bias row -/

theorem s02_v13 : after hostOps0_2 U (Proc.devRef .tc main_v13) = Cert.Spec.wT (U (Proc.devRef .tc main_arg2)) := by
  after_results <;> rfl

theorem s02_v14 : after hostOps0_2 U (Proc.devRef .tc main_v14) = bRowK (U (Proc.devRef .tc main_arg3)) := by
  after_results <;> rfl

theorem n02_v1 : after hostOps0_2 U (Proc.devRef .tc main_v1) = U (Proc.devRef .tc main_v1) := by
  after_results <;> rfl

theorem n02_v3 : after hostOps0_2 U (Proc.devRef .tc main_v3) = U (Proc.devRef .tc main_v3) := by
  after_results <;> rfl

theorem n02_v12 : after hostOps0_2 U (Proc.devRef .tc main_v12) = U (Proc.devRef .tc main_v12) := by
  after_results <;> rfl

theorem n02_arg0 : after hostOps0_2 U (Proc.devRef .tc main_arg0) = U (Proc.devRef .tc main_arg0) := by
  after_results <;> rfl

theorem n02_arg4 : after hostOps0_2 U (Proc.devRef .tc main_arg4) = U (Proc.devRef .tc main_arg4) := by
  after_results <;> rfl

theorem n02_arg5 : after hostOps0_2 U (Proc.devRef .tc main_arg5) = U (Proc.devRef .tc main_arg5) := by
  after_results <;> rfl

/-! ### The fourth stretch: the first aggregation and the degree column -/

attribute [local irreducible] Host.scatterAdd Host.gather in
theorem s1_v25 (ei : (⟨Cert.ReferenceIdeal.S2x1600000, .i32⟩ : BufTy).Contents (Elt F))
    (h1 : U (Proc.devRef .tc main_v1) = Cert.Spec.edgeRow0 ei) (h3 : U (Proc.devRef .tc main_v3) = Cert.Spec.edgeRow1 ei) :
    after hostOps1 U (Proc.devRef .tc main_v25) = Cert.Spec.agg (U (Proc.devRef .tc main_v15)) ei := by
  after_results
  rw [h1, h3]
  rfl

theorem s1_v26 : after hostOps1 U (Proc.devRef .tc main_v26) = dColK (U (Proc.devRef .tc main_v12)) := by
  after_results <;> rfl

theorem n1_v1 : after hostOps1 U (Proc.devRef .tc main_v1) = U (Proc.devRef .tc main_v1) := by
  after_results <;> rfl

theorem n1_v3 : after hostOps1 U (Proc.devRef .tc main_v3) = U (Proc.devRef .tc main_v3) := by
  after_results <;> rfl

theorem n1_v12 : after hostOps1 U (Proc.devRef .tc main_v12) = U (Proc.devRef .tc main_v12) := by
  after_results <;> rfl

theorem n1_arg4 : after hostOps1 U (Proc.devRef .tc main_arg4) = U (Proc.devRef .tc main_arg4) := by
  after_results <;> rfl

theorem n1_arg5 : after hostOps1 U (Proc.devRef .tc main_arg5) = U (Proc.devRef .tc main_arg5) := by
  after_results <;> rfl

/-! ### The fifth stretch: the second layer's transposed weights and bias row -/

theorem s2_v28 : after hostOps2 U (Proc.devRef .tc main_v28) = Cert.Spec.wT (U (Proc.devRef .tc main_arg4)) := by
  after_results <;> rfl

theorem s2_v29 : after hostOps2 U (Proc.devRef .tc main_v29) = bRowK (U (Proc.devRef .tc main_arg5)) := by
  after_results <;> rfl

theorem n2_v1 : after hostOps2 U (Proc.devRef .tc main_v1) = U (Proc.devRef .tc main_v1) := by
  after_results <;> rfl

theorem n2_v3 : after hostOps2 U (Proc.devRef .tc main_v3) = U (Proc.devRef .tc main_v3) := by
  after_results <;> rfl

theorem n2_v12 : after hostOps2 U (Proc.devRef .tc main_v12) = U (Proc.devRef .tc main_v12) := by
  after_results <;> rfl

theorem n2_v27 : after hostOps2 U (Proc.devRef .tc main_v27) = U (Proc.devRef .tc main_v27) := by
  after_results <;> rfl

/-! ### The sixth stretch: the second aggregation and the degree column -/

attribute [local irreducible] Host.scatterAdd Host.gather in
theorem s3_v40 (ei : (⟨Cert.ReferenceIdeal.S2x1600000, .i32⟩ : BufTy).Contents (Elt F))
    (h1 : U (Proc.devRef .tc main_v1) = Cert.Spec.edgeRow0 ei) (h3 : U (Proc.devRef .tc main_v3) = Cert.Spec.edgeRow1 ei) :
    after hostOps3 U (Proc.devRef .tc main_v40) = Cert.Spec.agg (U (Proc.devRef .tc main_v30)) ei := by
  after_results
  rw [h1, h3]
  rfl

theorem s3_v41 : after hostOps3 U (Proc.devRef .tc main_v41) = dColK (U (Proc.devRef .tc main_v12)) := by
  after_results <;> rfl

end Stretches

/-! ## The run's boundaries

`EI` below is the edge list at launch, `m` at the second argument's buffer. -/

section Run

variable (m : (ℓ : Loc nD τ sig) → Buf (Elt F) ℓ) (ρ : Dev nD → PrngReg) (c : Dev nD)

/-! ### The edge rows, carried to the last stretch that reads them -/

theorem w1_v1 : W1 m ρ c (Proc.devRef .tc main_v1) = Cert.Spec.edgeRow0 (m ((c : Thread nD τ).loc main_arg1)) :=
  s0_v1 _
theorem w2_v1 : W2 m ρ c (Proc.devRef .tc main_v1) = Cert.Spec.edgeRow0 (m ((c : Thread nD τ).loc main_arg1)) :=
  (n01_v1 _).trans (w1_v1 m ρ c)
theorem w3_v1 : W3 m ρ c (Proc.devRef .tc main_v1) = Cert.Spec.edgeRow0 (m ((c : Thread nD τ).loc main_arg1)) :=
  (n02_v1 _).trans (w2_v1 m ρ c)
theorem w4_v1 : W4 m ρ c (Proc.devRef .tc main_v1) = Cert.Spec.edgeRow0 (m ((c : Thread nD τ).loc main_arg1)) :=
  (W4_of_ne m ρ c main_v1 (by decide)).trans (w3_v1 m ρ c)
theorem w5_v1 : W5 m ρ c (Proc.devRef .tc main_v1) = Cert.Spec.edgeRow0 (m ((c : Thread nD τ).loc main_arg1)) :=
  (n1_v1 _).trans (w4_v1 m ρ c)
theorem w6_v1 : W6 m ρ c (Proc.devRef .tc main_v1) = Cert.Spec.edgeRow0 (m ((c : Thread nD τ).loc main_arg1)) :=
  (W6_of_ne m ρ c main_v1 (by decide)).trans (w5_v1 m ρ c)
theorem w7_v1 : W7 m ρ c (Proc.devRef .tc main_v1) = Cert.Spec.edgeRow0 (m ((c : Thread nD τ).loc main_arg1)) :=
  (n2_v1 _).trans (w6_v1 m ρ c)
theorem w8_v1 : W8 m ρ c (Proc.devRef .tc main_v1) = Cert.Spec.edgeRow0 (m ((c : Thread nD τ).loc main_arg1)) :=
  (W8_of_ne m ρ c main_v1 (by decide)).trans (w7_v1 m ρ c)

theorem w1_v3 : W1 m ρ c (Proc.devRef .tc main_v3) = Cert.Spec.edgeRow1 (m ((c : Thread nD τ).loc main_arg1)) :=
  s0_v3 _
theorem w2_v3 : W2 m ρ c (Proc.devRef .tc main_v3) = Cert.Spec.edgeRow1 (m ((c : Thread nD τ).loc main_arg1)) :=
  (n01_v3 _).trans (w1_v3 m ρ c)
theorem w3_v3 : W3 m ρ c (Proc.devRef .tc main_v3) = Cert.Spec.edgeRow1 (m ((c : Thread nD τ).loc main_arg1)) :=
  (n02_v3 _).trans (w2_v3 m ρ c)
theorem w4_v3 : W4 m ρ c (Proc.devRef .tc main_v3) = Cert.Spec.edgeRow1 (m ((c : Thread nD τ).loc main_arg1)) :=
  (W4_of_ne m ρ c main_v3 (by decide)).trans (w3_v3 m ρ c)
theorem w5_v3 : W5 m ρ c (Proc.devRef .tc main_v3) = Cert.Spec.edgeRow1 (m ((c : Thread nD τ).loc main_arg1)) :=
  (n1_v3 _).trans (w4_v3 m ρ c)
theorem w6_v3 : W6 m ρ c (Proc.devRef .tc main_v3) = Cert.Spec.edgeRow1 (m ((c : Thread nD τ).loc main_arg1)) :=
  (W6_of_ne m ρ c main_v3 (by decide)).trans (w5_v3 m ρ c)
theorem w7_v3 : W7 m ρ c (Proc.devRef .tc main_v3) = Cert.Spec.edgeRow1 (m ((c : Thread nD τ).loc main_arg1)) :=
  (n2_v3 _).trans (w6_v3 m ρ c)
theorem w8_v3 : W8 m ρ c (Proc.devRef .tc main_v3) = Cert.Spec.edgeRow1 (m ((c : Thread nD τ).loc main_arg1)) :=
  (W8_of_ne m ρ c main_v3 (by decide)).trans (w7_v3 m ρ c)

/-! ### The inverse degree -/

theorem w2_v12 : W2 m ρ c (Proc.devRef .tc main_v12) = Cert.Spec.degInv (m ((c : Thread nD τ).loc main_arg1)) :=
  s01_v12 _ _ (s0_v9 _) (s0_v11 _) (s0_cst_3 _)
theorem w3_v12 : W3 m ρ c (Proc.devRef .tc main_v12) = Cert.Spec.degInv (m ((c : Thread nD τ).loc main_arg1)) :=
  (n02_v12 _).trans (w2_v12 m ρ c)
theorem w4_v12 : W4 m ρ c (Proc.devRef .tc main_v12) = Cert.Spec.degInv (m ((c : Thread nD τ).loc main_arg1)) :=
  (W4_of_ne m ρ c main_v12 (by decide)).trans (w3_v12 m ρ c)
theorem w5_v12 : W5 m ρ c (Proc.devRef .tc main_v12) = Cert.Spec.degInv (m ((c : Thread nD τ).loc main_arg1)) :=
  (n1_v12 _).trans (w4_v12 m ρ c)
theorem w6_v12 : W6 m ρ c (Proc.devRef .tc main_v12) = Cert.Spec.degInv (m ((c : Thread nD τ).loc main_arg1)) :=
  (W6_of_ne m ρ c main_v12 (by decide)).trans (w5_v12 m ρ c)
theorem w7_v12 : W7 m ρ c (Proc.devRef .tc main_v12) = Cert.Spec.degInv (m ((c : Thread nD τ).loc main_arg1)) :=
  (n2_v12 _).trans (w6_v12 m ρ c)
theorem w8_v12 : W8 m ρ c (Proc.devRef .tc main_v12) = Cert.Spec.degInv (m ((c : Thread nD τ).loc main_arg1)) :=
  (W8_of_ne m ρ c main_v12 (by decide)).trans (w7_v12 m ρ c)

/-! ### The arguments, carried to the stretch that reads them -/

theorem w0_arg0 : W0 m ρ c (Proc.devRef .tc main_arg0) = m ((c : Thread nD τ).loc main_arg0) :=
  rfl
theorem w1_arg0 : W1 m ρ c (Proc.devRef .tc main_arg0) = m ((c : Thread nD τ).loc main_arg0) :=
  (n0_arg0 _).trans (w0_arg0 m ρ c)
theorem w2_arg0 : W2 m ρ c (Proc.devRef .tc main_arg0) = m ((c : Thread nD τ).loc main_arg0) :=
  (n01_arg0 _).trans (w1_arg0 m ρ c)
theorem w3_arg0 : W3 m ρ c (Proc.devRef .tc main_arg0) = m ((c : Thread nD τ).loc main_arg0) :=
  (n02_arg0 _).trans (w2_arg0 m ρ c)

theorem w0_arg2 : W0 m ρ c (Proc.devRef .tc main_arg2) = m ((c : Thread nD τ).loc main_arg2) :=
  rfl
theorem w1_arg2 : W1 m ρ c (Proc.devRef .tc main_arg2) = m ((c : Thread nD τ).loc main_arg2) :=
  (n0_arg2 _).trans (w0_arg2 m ρ c)
theorem w2_arg2 : W2 m ρ c (Proc.devRef .tc main_arg2) = m ((c : Thread nD τ).loc main_arg2) :=
  (n01_arg2 _).trans (w1_arg2 m ρ c)

theorem w0_arg3 : W0 m ρ c (Proc.devRef .tc main_arg3) = m ((c : Thread nD τ).loc main_arg3) :=
  rfl
theorem w1_arg3 : W1 m ρ c (Proc.devRef .tc main_arg3) = m ((c : Thread nD τ).loc main_arg3) :=
  (n0_arg3 _).trans (w0_arg3 m ρ c)
theorem w2_arg3 : W2 m ρ c (Proc.devRef .tc main_arg3) = m ((c : Thread nD τ).loc main_arg3) :=
  (n01_arg3 _).trans (w1_arg3 m ρ c)

theorem w0_arg4 : W0 m ρ c (Proc.devRef .tc main_arg4) = m ((c : Thread nD τ).loc main_arg4) :=
  rfl
theorem w1_arg4 : W1 m ρ c (Proc.devRef .tc main_arg4) = m ((c : Thread nD τ).loc main_arg4) :=
  (n0_arg4 _).trans (w0_arg4 m ρ c)
theorem w2_arg4 : W2 m ρ c (Proc.devRef .tc main_arg4) = m ((c : Thread nD τ).loc main_arg4) :=
  (n01_arg4 _).trans (w1_arg4 m ρ c)
theorem w3_arg4 : W3 m ρ c (Proc.devRef .tc main_arg4) = m ((c : Thread nD τ).loc main_arg4) :=
  (n02_arg4 _).trans (w2_arg4 m ρ c)
theorem w4_arg4 : W4 m ρ c (Proc.devRef .tc main_arg4) = m ((c : Thread nD τ).loc main_arg4) :=
  (W4_of_ne m ρ c main_arg4 (by decide)).trans (w3_arg4 m ρ c)
theorem w5_arg4 : W5 m ρ c (Proc.devRef .tc main_arg4) = m ((c : Thread nD τ).loc main_arg4) :=
  (n1_arg4 _).trans (w4_arg4 m ρ c)
theorem w6_arg4 : W6 m ρ c (Proc.devRef .tc main_arg4) = m ((c : Thread nD τ).loc main_arg4) :=
  (W6_of_ne m ρ c main_arg4 (by decide)).trans (w5_arg4 m ρ c)

theorem w0_arg5 : W0 m ρ c (Proc.devRef .tc main_arg5) = m ((c : Thread nD τ).loc main_arg5) :=
  rfl
theorem w1_arg5 : W1 m ρ c (Proc.devRef .tc main_arg5) = m ((c : Thread nD τ).loc main_arg5) :=
  (n0_arg5 _).trans (w0_arg5 m ρ c)
theorem w2_arg5 : W2 m ρ c (Proc.devRef .tc main_arg5) = m ((c : Thread nD τ).loc main_arg5) :=
  (n01_arg5 _).trans (w1_arg5 m ρ c)
theorem w3_arg5 : W3 m ρ c (Proc.devRef .tc main_arg5) = m ((c : Thread nD τ).loc main_arg5) :=
  (n02_arg5 _).trans (w2_arg5 m ρ c)
theorem w4_arg5 : W4 m ρ c (Proc.devRef .tc main_arg5) = m ((c : Thread nD τ).loc main_arg5) :=
  (W4_of_ne m ρ c main_arg5 (by decide)).trans (w3_arg5 m ρ c)
theorem w5_arg5 : W5 m ρ c (Proc.devRef .tc main_arg5) = m ((c : Thread nD τ).loc main_arg5) :=
  (n1_arg5 _).trans (w4_arg5 m ρ c)
theorem w6_arg5 : W6 m ρ c (Proc.devRef .tc main_arg5) = m ((c : Thread nD τ).loc main_arg5) :=
  (W6_of_ne m ρ c main_arg5 (by decide)).trans (w5_arg5 m ρ c)

/-! ### At the first region's entry -/

theorem w3_v13 : W3 m ρ c (Proc.devRef .tc main_v13) = Cert.Spec.wT (m ((c : Thread nD τ).loc main_arg2)) :=
  (s02_v13 _).trans (congrArg Cert.Spec.wT (w2_arg2 m ρ c))

theorem w3_v14 : W3 m ρ c (Proc.devRef .tc main_v14) = bRowK (m ((c : Thread nD τ).loc main_arg3)) :=
  (s02_v14 _).trans (congrArg bRowK (w2_arg3 m ρ c))

/-! ### At the second region's entry -/

theorem w5_v25 : W5 m ρ c (Proc.devRef .tc main_v25) = Cert.Spec.agg (W4 m ρ c (Proc.devRef .tc main_v15)) (m ((c : Thread nD τ).loc main_arg1)) :=
  s1_v25 _ _ (w4_v1 m ρ c) (w4_v3 m ρ c)

theorem w5_v26 : W5 m ρ c (Proc.devRef .tc main_v26) = dColK (Cert.Spec.degInv (m ((c : Thread nD τ).loc main_arg1))) :=
  (s1_v26 _).trans (congrArg dColK (w4_v12 m ρ c))

/-! ### At the third region's entry -/

theorem w7_v27 : W7 m ρ c (Proc.devRef .tc main_v27) = W6 m ρ c (Proc.devRef .tc main_v27) :=
  n2_v27 _

theorem w7_v28 : W7 m ρ c (Proc.devRef .tc main_v28) = Cert.Spec.wT (m ((c : Thread nD τ).loc main_arg4)) :=
  (s2_v28 _).trans (congrArg Cert.Spec.wT (w6_arg4 m ρ c))

theorem w7_v29 : W7 m ρ c (Proc.devRef .tc main_v29) = bRowK (m ((c : Thread nD τ).loc main_arg5)) :=
  (s2_v29 _).trans (congrArg bRowK (w6_arg5 m ρ c))

/-! ### At the fourth region's entry -/

theorem w9_v40 : W9 m ρ c (Proc.devRef .tc main_v40) = Cert.Spec.agg (W8 m ρ c (Proc.devRef .tc main_v30)) (m ((c : Thread nD τ).loc main_arg1)) :=
  s3_v40 _ _ (w8_v1 m ρ c) (w8_v3 m ρ c)

theorem w9_v41 : W9 m ρ c (Proc.devRef .tc main_v41) = dColK (Cert.Spec.degInv (m ((c : Thread nD τ).loc main_arg1))) :=
  (s3_v41 _).trans (congrArg dColK (w8_v12 m ρ c))

end Run

end Cert.KernelIdeal.KFold

end
-- ==== Proof.LibColumn.lean ====
/-
  Column forms of the layout operations, read at an index. A row reduction that keeps its axis
  (`sum(axis = -1, keepdims = True)`) produces a vector of shape `[a]` that is recast to the column `[a, 1]`
  and then repeated along the second axis to `[a, b]`. Both steps move no data: entry `(i, u)` of the column is
  entry `i` of the vector, and entry `(p, c)` of the repeated column is entry `(p, 0)` of the column.
-/
import Idealize.ShloMosaic.Lib.Pipeline.Value
import Idealize.ShloMosaic.Lib.ValueIdx

namespace Cert.Lib.Column

open Idealize.ShloMosaic Idealize.ShloMosaic.ValueIdx

variable {α : Type}

/-- An `[a]` array cast to the column `[a, 1]` reads, at `(i, u)`, the operand at `i`: both indices sit at
    row-major position `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.PointSpec.lean ====
import proofs.«140958_j9947144258104_1_alg».proof.Proof.Spec
import proofs.«140958_j9947144258104_1_alg».proof.Proof.LibColumn
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.PureOps.Ideal.Laws
import Idealize.ShloMosaic.PureOps.IdealRules

/-!
# The reference's stages, entry by entry

At the ideal values (a float is an extended real) every stage of `Cert.Spec` that is not the aggregation reads, at an
entry `(r, q)`, a closed expression in the entries of its operands:

* `lin x wt brow` at `(r, q)` is `∑ k, x (r, k) * wt (k, q)` plus `brow (0, q)`  (`linPt`);
* `norm a dcol` at `(r, q)` is `a (r, q) * dcol (r, 0)`;
* `elu z` at `(r, q)` is `eluPt (z (r, q))`: the entry itself where it is above zero, `exp − 1` of it elsewhere;
* the column `dCol d` at `(r, 0)` is `d r`, the row `bRow b` at `(0, q)` is `b q`.
-/

noncomputable section

open scoped BigOperators

namespace Cert.Point

open Idealize.ShloMosaic Idealize.ShloMosaic.ValueIdx

/-! ## The two closed forms -/

/-- A row times a column, plus a bias entry. -/
def linPt (a w : Fin 128 → EReal) (b : EReal) : EReal := (∑ k : Fin 128, a k * w k) + b

/-- `v` where the ordered comparison `v > 0` holds, `exp v − 1` elsewhere. -/
def eluPt (v : EReal) : EReal := Scalar.select (Ideal.cmp .ogt v 0) v (Ideal.exp v - 1)

/-- The comparison bit decided by the order of the extended reals. -/
theorem eluPt_eq (v : EReal) : eluPt v = if 0 < v then v else Ideal.exp v - 1 := by
  unfold eluPt Scalar.select Ideal.cmp
  by_cases h : 0 < v
  · simp [h]
  · simp [h]

/-- The pattern of `1.0` denotes `1`. -/
theorem ofBits_one_f32 : Ideal.ofBits .f32 0x3F800000#32 = 1 := IdealRules.sign_bit.ideal_onePat .f32

section Spec

open Cert.ReferenceIdeal Cert.ReferenceIdeal.Facts₀

variable [Cert.ReferenceIdeal.Facts₀]

/-- A column `[100000, 1]` repeated along the second axis reads, at `(r, q)`, its entry of row `r`. -/
theorem bcastCol_apply (dcol : (⟨S100000x1, .f32⟩ : BufTy).Contents (Elt Ideal)) (r : Fin 100000) (q : Fin 128) :
    broadcastInDim S100000x128 ![0, 1] bcast_S100000x1_S100000x128_0_1 dcol (ix2 r q) = dcol (ix2 r (0 : Fin 1)) := by
  refine broadcastInDim_apply ![0, 1] bcast_S100000x1_S100000x128_0_1 dcol (ix2 r q) (ix2 r (0 : Fin 1)) fun a => ?_
  match a with
  | ⟨0, _⟩ => rfl
  | ⟨1, _⟩ => rfl

/-- `norm` at an entry: the entry times the column's entry of its row. -/
theorem norm_apply (a : (⟨S100000x128, .f32⟩ : BufTy).Contents (Elt Ideal))
    (dcol : (⟨S100000x1, .f32⟩ : BufTy).Contents (Elt Ideal)) (r : Fin 100000) (q : Fin 128) :
    Cert.Spec.norm (F := Ideal) a dcol (ix2 r q) = a (ix2 r q) * dcol (ix2 r (0 : Fin 1)) := by
  unfold Cert.Spec.norm
  exact congrArg (a (ix2 r q) * ·) (bcastCol_apply dcol r q)

/-- The column of a vector at `(r, 0)` is the vector's entry `r`. -/
theorem dCol_apply (d : (⟨S100000, .f32⟩ : BufTy).Contents (Elt Ideal)) (r : Fin 100000) :
    Cert.Spec.dCol (F := Ideal) d (ix2 r (0 : Fin 1)) = d (ix1 r) := by
  unfold Cert.Spec.dCol
  refine broadcastInDim_apply ![0] bcast_S100000_S100000x1_0 d (ix2 r (0 : Fin 1)) (ix1 r) fun a => ?_
  match a with
  | ⟨0, _⟩ => rfl

/-- The row of a vector at `(0, q)` is the vector's entry `q`. -/
theorem bRow_apply (b : (⟨S128, .f32⟩ : BufTy).Contents (Elt Ideal)) (q : Fin 128) :
    Cert.Spec.bRow (F := Ideal) b (ix2 (0 : Fin 1) q) = b (ix1 q) := by
  unfold Cert.Spec.bRow
  refine broadcastInDim_apply ![1] bcast_S128_S1x128_1 b (ix2 (0 : Fin 1) q) (ix1 q) fun a => ?_
  match a with
  | ⟨0, _⟩ => rfl

/-- The scalar zero broadcast to the whole array reads `0` everywhere. -/
theorem bcastZero_apply (i : S100000x128.Idx) :
    broadcastInDim S100000x128 ![] bcast_S_S100000x128 (constant (F := Ideal) S_ .f32 0x00000000#32) i = (0 : EReal) :=
  (broadcastInDim_scalar_apply bcast_S_S100000x128 _ i).trans ((constant_apply _ _).trans Ideal.ofBits_zero_f32)

/-- The scalar one broadcast to the whole array reads `1` everywhere. -/
theorem bcastOne_apply (i : S100000x128.Idx) :
    broadcastInDim S100000x128 ![] bcast_S_S100000x128 (constant (F := Ideal) S_ .f32 0x3F800000#32) i = (1 : EReal) :=
  (broadcastInDim_scalar_apply bcast_S_S100000x128 _ i).trans ((constant_apply _ _).trans ofBits_one_f32)

/-- `elu` at an entry. Where the entry is above zero both spellings return it. Elsewhere the inner select leaves the
    entry in place, the host's `expm1` is `exp − 1`, and the factor one in front of it is the identity. -/
theorem elu_apply (z : (⟨S100000x128, .f32⟩ : BufTy).Contents (Elt Ideal)) (r : Fin 100000) (q : Fin 128) :
    Cert.Spec.elu (F := Ideal) z (ix2 r q) = eluPt (z (ix2 r q)) := by
  unfold Cert.Spec.elu eluPt
  show Scalar.select (FloatOps.cmpf .ogt (z (ix2 r q)) (broadcastInDim S100000x128 ![] bcast_S_S100000x128 (constant (F := Ideal) S_ .f32 0x00000000#32) (ix2 r q)))
      (z (ix2 r q))
      (broadcastInDim S100000x128 ![] bcast_S_S100000x128 (constant (F := Ideal) S_ .f32 0x3F800000#32) (ix2 r q)
        * FloatOps.hostUnary .expm1 (Scalar.select (FloatOps.cmpf .ogt (z (ix2 r q)) (broadcastInDim S100000x128 ![] bcast_S_S100000x128 (constant (F := Ideal) S_ .f32 0x00000000#32) (ix2 r q)))
            (broadcastInDim S100000x128 ![] bcast_S_S100000x128 (constant (F := Ideal) S_ .f32 0x00000000#32) (ix2 r q))
            (z (ix2 r q)))) = _
  rw [bcastZero_apply, bcastOne_apply, Ideal.cmpf_def, Ideal.hostUnary_expm1_def, one_mul]
  unfold Scalar.select
  by_cases h : Ideal.cmp .ogt (z (ix2 r q)) 0 = 1
  · rw [if_pos h, if_pos h]
  · rw [if_neg h, if_neg h, if_neg h]

/-- On the left operand's free axis the reference's product reads the output's row. -/
theorem lhs0_ref (i : S100000x128.Idx) (c : dot_S100000x128_S128x128_S100000x128_1_0_0_1_n_n.contr.Idx) :
    (dot_S100000x128_S128x128_S100000x128_1_0_0_1_n_n.lhsIdx i c 0).val = (i 0).val := by
  unfold DotDims.lhsIdx
  rw [dif_neg (show ¬(0 : Fin S100000x128.rank) ∈ dot_S100000x128_S128x128_S100000x128_1_0_0_1_n_n.lhsBatch from List.not_mem_nil),
    dif_pos (show (0 : Fin S100000x128.rank) ∈ dot_S100000x128_S128x128_S100000x128_1_0_0_1_n_n.lhsNonContracting from
      List.mem_singleton.mpr rfl)]
  rfl

/-- On the right operand's free axis it reads the output's column. -/
theorem rhs1_ref (i : S100000x128.Idx) (c : dot_S100000x128_S128x128_S100000x128_1_0_0_1_n_n.contr.Idx) :
    (dot_S100000x128_S128x128_S100000x128_1_0_0_1_n_n.rhsIdx i c 1).val = (i 1).val := by
  unfold DotDims.rhsIdx
  rw [dif_neg (show ¬(1 : Fin S128x128.rank) ∈ dot_S100000x128_S128x128_S100000x128_1_0_0_1_n_n.rhsBatch from List.not_mem_nil),
    dif_pos (show (1 : Fin S128x128.rank) ∈ dot_S100000x128_S128x128_S100000x128_1_0_0_1_n_n.rhsNonContracting from
      List.mem_singleton.mpr rfl)]
  rfl

/-- The reference's contraction index is its one coordinate: the left operand is read at `(r, k)`. -/
theorem lhsIdx_ref (r : Fin 100000) (q k : Fin 128) :
    dot_S100000x128_S128x128_S100000x128_1_0_0_1_n_n.lhsIdx (ix2 r q)
      ((contrEquiv1 dot_S100000x128_S128x128_S100000x128_1_0_0_1_n_n 128 rfl rfl).symm k) = ix2 r k :=
  funext fun a => Fin.ext (by
    match a with
    | ⟨0, _⟩ => exact lhs0_ref _ _
    | ⟨1, _⟩ =>
      exact (dot_S100000x128_S128x128_S100000x128_1_0_0_1_n_n.lhsIdx_val_of_single rfl _ _).trans
        (contrEquiv1_symm_val dot_S100000x128_S128x128_S100000x128_1_0_0_1_n_n 128 rfl rfl k))

/-- … and the right operand at `(k, q)`. -/
theorem rhsIdx_ref (r : Fin 100000) (q k : Fin 128) :
    dot_S100000x128_S128x128_S100000x128_1_0_0_1_n_n.rhsIdx (ix2 r q)
      ((contrEquiv1 dot_S100000x128_S128x128_S100000x128_1_0_0_1_n_n 128 rfl rfl).symm k) = ix2 k q :=
  funext fun a => Fin.ext (by
    match a with
    | ⟨0, _⟩ =>
      exact (dot_S100000x128_S128x128_S100000x128_1_0_0_1_n_n.rhsIdx_val_of_single rfl _ _).trans
        (contrEquiv1_symm_val dot_S100000x128_S128x128_S100000x128_1_0_0_1_n_n 128 rfl rfl k)
    | ⟨1, _⟩ => exact rhs1_ref _ _)

/-- `lin` at an entry: row `r` of `x` times column `q` of `wt`, plus the bias row's entry `q`. -/
theorem lin_apply (x : (⟨S100000x128, .f32⟩ : BufTy).Contents (Elt Ideal)) (wt : (⟨S128x128, .f32⟩ : BufTy).Contents (Elt Ideal))
    (brow : (⟨S1x128, .f32⟩ : BufTy).Contents (Elt Ideal)) (r : Fin 100000) (q : Fin 128) :
    Cert.Spec.lin (F := Ideal) x wt brow (ix2 r q)
      = linPt (fun k => x (ix2 r k)) (fun k => wt (ix2 k q)) (brow (ix2 (0 : Fin 1) q)) := by
  unfold Cert.Spec.lin linPt
  refine (addf_apply _ _ (ix2 r q)).trans ?_
  refine congrArg₂ (· + ·) ?_ (broadcastInDim_oneRow_apply bcast_S1x128_S100000x128_0_1 brow r q)
  refine (Ideal.dotGeneral_apply dot_S100000x128_S128x128_S100000x128_1_0_0_1_n_n none HostSchedule.single x wt (ix2 r q)).trans ?_
  rw [← Equiv.sum_comp (contrEquiv1 dot_S100000x128_S128x128_S100000x128_1_0_0_1_n_n 128 rfl rfl).symm]
  refine Finset.sum_congr rfl fun k _ => ?_
  rw [lhsIdx_ref r q k, rhsIdx_ref r q k]

end Spec

end Cert.Point

end
-- ==== Proof.PointKernel.lean ====
import proofs.«140958_j9947144258104_1_alg».proof.Proof.Gen.KernelIdeal.Skeleton
import proofs.«140958_j9947144258104_1_alg».proof.Proof.PointSpec

/-!
# The kernel's block arithmetic, entry by entry

At the ideal values each of the four regions' stored block reads, at an entry `(p, q)` of the block, the same closed
expression as the matching stage of the reference (`PointSpec`):

* the two linear regions: `∑ k, x (p, k) * w (k, q)` plus the bias row's entry `q` (the narrowing of the operands to
  sixteen bits is the identity on extended reals, and the product accumulates into zero);
* the first scaling region: `eluPt` of the entry times the column's entry of its row;
* the second scaling region: the entry times the column's entry of its row.

The host's recasts of a vector to a row or a column, which feed the regions, move no data.
-/

noncomputable section

open scoped BigOperators

namespace Cert.Point

open Idealize.ShloMosaic Idealize.ShloMosaic.ValueIdx

section Kernel

open Cert.KernelIdeal Cert.KernelIdeal.Facts₀

/-- The second scaling region: the entry times the column's entry of its row. -/
theorem k3_pay1_apply (y0 : Vec Ideal S2000x128 .f32) (y1 : Vec Ideal S2000x1 .f32) (p : Fin 2000) (q : Fin 128) :
    Cert.KernelIdeal.Gen.k3_pay1 (F := Ideal) y0 y1 (ix2 p q) = y0 (ix2 p q) * y1 (ix2 p (0 : Fin 1)) := by
  unfold Cert.KernelIdeal.Gen.k3_pay1
  refine (mulf_apply _ _ (ix2 p q)).trans ?_
  refine congrArg₂ (· * ·) (congrFun (shapeCast_self y0 _) _) ?_
  exact (Cert.Lib.Column.broadcastTo_a1_ab_apply _ _ p q).trans (congrFun (shapeCast_self y1 _) _)

/-- The first scaling region: `eluPt` of the scaled entry. The comparison is against the pattern of zero, the
    subtrahend the pattern of one. -/
theorem k1_pay1_apply (y0 : Vec Ideal S2000x128 .f32) (y1 : Vec Ideal S2000x1 .f32) (p : Fin 2000) (q : Fin 128) :
    Cert.KernelIdeal.Gen.k1_pay1 (F := Ideal) y0 y1 (ix2 p q) = eluPt (y0 (ix2 p q) * y1 (ix2 p (0 : Fin 1))) := by
  show Scalar.select
      (FloatOps.cmpf .ogt (Cert.KernelIdeal.Gen.k3_pay1 (F := Ideal) y0 y1 (ix2 p q)) (FloatOps.ofBits (F := Ideal) .f32 0x00000000#32))
      (Cert.KernelIdeal.Gen.k3_pay1 (F := Ideal) y0 y1 (ix2 p q))
      (FloatOps.exp (Cert.KernelIdeal.Gen.k3_pay1 (F := Ideal) y0 y1 (ix2 p q)) - FloatOps.ofBits (F := Ideal) .f32 0x3F800000#32) = _
  rw [k3_pay1_apply, Ideal.cmpf_def, Ideal.exp_def, Ideal.ofBits_def, Ideal.ofBits_def, Ideal.ofBits_zero_f32, ofBits_one_f32]
  rfl

/-- On the left operand's free axis the block's product reads the output's row. -/
theorem lhs0_ker (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch from List.not_mem_nil),
    dif_pos (show (0 : Fin S2000x128.rank) ∈ dot_S2000x128_S128x128_S2000x128_1_0_0_1_n_n.lhsNonContracting from
      List.mem_singleton.mpr rfl)]
  rfl

/-- On the right operand's free axis it reads the output's column. -/
theorem rhs1_ker (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch from List.not_mem_nil),
    dif_pos (show (1 : Fin S128x128.rank) ∈ dot_S2000x128_S128x128_S2000x128_1_0_0_1_n_n.rhsNonContracting from
      List.mem_singleton.mpr rfl)]
  rfl

/-- The block product's contraction index is its one coordinate: the left operand is read at `(p, k)`. -/
theorem lhsIdx_ker (p : Fin 2000) (q k : Fin 128) :
    dot_S2000x128_S128x128_S2000x128_1_0_0_1_n_n.lhsIdx (ix2 p q)
      ((contrEquiv1 dot_S2000x128_S128x128_S2000x128_1_0_0_1_n_n 128 rfl rfl).symm k) = ix2 p k :=
  funext fun a => Fin.ext (by
    match a with
    | ⟨0, _⟩ => exact lhs0_ker _ _
    | ⟨1, _⟩ =>
      exact (dot_S2000x128_S128x128_S2000x128_1_0_0_1_n_n.lhsIdx_val_of_single rfl _ _).trans
        (contrEquiv1_symm_val dot_S2000x128_S128x128_S2000x128_1_0_0_1_n_n 128 rfl rfl k))

/-- … and the right operand at `(k, q)`. -/
theorem rhsIdx_ker (p : Fin 2000) (q k : Fin 128) :
    dot_S2000x128_S128x128_S2000x128_1_0_0_1_n_n.rhsIdx (ix2 p q)
      ((contrEquiv1 dot_S2000x128_S128x128_S2000x128_1_0_0_1_n_n 128 rfl rfl).symm k) = ix2 k q :=
  funext fun a => Fin.ext (by
    match a with
    | ⟨0, _⟩ =>
      exact (dot_S2000x128_S128x128_S2000x128_1_0_0_1_n_n.rhsIdx_val_of_single rfl _ _).trans
        (contrEquiv1_symm_val dot_S2000x128_S128x128_S2000x128_1_0_0_1_n_n 128 rfl rfl k)
    | ⟨1, _⟩ => exact rhs1_ker _ _)

/-- The block product into the zero accumulator, at an entry: the row of the left operand times the column of the
    right one. -/
theorem matmul_ker_apply (a : FVec Ideal S2000x128 .bf16) (w : FVec Ideal S128x128 .bf16) (p : Fin 2000) (q : Fin 128) :
    FloatOps.matmul dot_S2000x128_S128x128_S2000x128_1_0_0_1_n_n none a w (constant (F := Ideal) S2000x128 .f32 0x00000000#32) (ix2 p q)
      = ∑ k : Fin 128, a (ix2 p k) * w (ix2 k q) := by
  refine (Ideal.matmul_constant_zero_apply dot_S2000x128_S128x128_S2000x128_1_0_0_1_n_n none a w (ix2 p q)).trans ?_
  rw [← Equiv.sum_comp (contrEquiv1 dot_S2000x128_S128x128_S2000x128_1_0_0_1_n_n 128 rfl rfl).symm]
  refine Finset.sum_congr rfl fun k _ => ?_
  rw [lhsIdx_ker p q k, rhsIdx_ker p q k]

/-- The first linear region: row `p` of the block times column `q` of the weights, plus the bias row's entry `q`. -/
theorem k0_pay1_apply (x0 : Vec Ideal S2000x128 .f32) (x1 : Vec Ideal S128x128 .f32) (x2 : Vec Ideal S1x128 .f32)
    (p : Fin 2000) (q : Fin 128) :
    Cert.KernelIdeal.Gen.k0_pay1 (F := Ideal) x0 x1 x2 (ix2 p q)
      = linPt (fun k => x0 (ix2 p k)) (fun k => x1 (ix2 k q)) (x2 (ix2 (0 : Fin 1) q)) := by
  unfold Cert.KernelIdeal.Gen.k0_pay1 linPt
  refine (addf_apply _ _ (ix2 p q)).trans ?_
  refine congrArg₂ (· + ·) ?_ ?_
  · refine (matmul_ker_apply _ _ p q).trans (Finset.sum_congr rfl fun k _ => ?_)
    exact congrArg (x0 (ix2 p k) * ·) (congrFun (shapeCast_self x1 _) (ix2 k q))
  · exact (broadcastTo_1b_ab_apply _ _ p q).trans (congrFun (shapeCast_self x2 _) _)

/-- The second linear region: the same, its left operand first recast to its own shape. -/
theorem k2_pay1_apply (x0 : Vec Ideal S2000x128 .f32) (x1 : Vec Ideal S128x128 .f32) (x2 : Vec Ideal S1x128 .f32)
    (p : Fin 2000) (q : Fin 128) :
    Cert.KernelIdeal.Gen.k2_pay1 (F := Ideal) x0 x1 x2 (ix2 p q)
      = linPt (fun k => x0 (ix2 p k)) (fun k => x1 (ix2 k q)) (x2 (ix2 (0 : Fin 1) q)) := by
  unfold Cert.KernelIdeal.Gen.k2_pay1 linPt
  refine (addf_apply _ _ (ix2 p q)).trans ?_
  refine congrArg₂ (· + ·) ?_ ?_
  · refine (matmul_ker_apply _ _ p q).trans (Finset.sum_congr rfl fun k _ => ?_)
    exact congrArg₂ (· * ·) (congrFun (shapeCast_self x0 _) (ix2 p k)) (congrFun (shapeCast_self x1 _) (ix2 k q))
  · exact (broadcastTo_1b_ab_apply _ _ p q).trans (congrFun (shapeCast_self x2 _) _)

end Kernel

section Host

open Cert.KernelIdeal Cert.KernelIdeal.Facts₀

variable [Cert.KernelIdeal.Facts₀] {α : Type}

/-- The bias vector recast to a one-row matrix reads, at `(0, q)`, the vector's entry `q`. -/
theorem rowCast_apply (b : S128.Idx → α) (q : Fin 128) :
    shapeCast S1x128 b shapeCasts_S128_S1x128 (ix2 (0 : Fin 1) q) = b (ix1 q) :=
  shapeCast_a_1a_apply b shapeCasts_S128_S1x128 (0 : Fin 1) q

/-- The scaling vector recast to a one-column matrix reads, at `(r, 0)`, the vector's entry `r`. -/
theorem colCast_apply (d : S100000.Idx → α) (r : Fin 100000) :
    shapeCast S100000x1 d shapeCasts_S100000_S100000x1 (ix2 r (0 : Fin 1)) = d (ix1 r) :=
  Cert.Lib.Column.shapeCast_a_a1_apply d shapeCasts_S100000_S100000x1 r (0 : Fin 1)

end Host

end Cert.Point

end
-- ==== Proof.KLin0.lean ====
import proofs.«140958_j9947144258104_1_alg».proof.Proof.Gen.KernelIdeal.Frame
import proofs.«140958_j9947144258104_1_alg».proof.Proof.Spec
import proofs.«140958_j9947144258104_1_alg».proof.Proof.PointSpec
import proofs.«140958_j9947144258104_1_alg».proof.Proof.PointKernel
import Idealize.ShloMosaic.Lib.Pipeline.Value
import Idealize.ShloMosaic.Lib.ValueIdx

/-!
# The first affine layer as one array

The region runs over 50 grid points; point `t` reads rows `2000 t … 2000 t + 1999` of its input, the whole
weight matrix and the whole bias row, and writes the same rows of its output: each entry is the dot product of
a row of the input block with a column of the weights, plus the bias entry of that column.  The output blocks
tile the 100000 rows, so after the last point the output array is `lin` of the three input arrays as the region
found them.
-/

set_option maxRecDepth 16384

noncomputable section

namespace Cert.KernelIdeal.Lin0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block indices at point `t`: the input and output blocks are the `t`-th row blocks, the weights and the
    bias are read whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 50 :=
  (by decide +kernel : ∀ t : Fin grid0.N, _)

/-- Row `p` of the output block of point `t` is row `2000 t + p` of the array. -/
theorem emb_out (t : Fin cfg0.N) (y : S2000x128.Idx) (h : t.val * 2000 + (y 0).val < 100000) :
    ((cfg0.win 3).blk t).view.emb y = (ix2 ⟨t.val * 2000 + (y 0).val, h⟩ (y 1) : S100000x128.Idx) := by
  obtain ⟨e0, e1, e2, e3, e4, e5, e6, e7, e8⟩ := idx_facts t
  funext a; apply Fin.ext
  match a with
  | ⟨0, _⟩ => show win0_3.index t (0 : Fin 2) * 2000 + 1 * (y 0).val = t.val * 2000 + (y 0).val; omega
  | ⟨1, _⟩ => show win0_3.index t (1 : Fin 2) * 128 + 1 * (y 1).val = (y 1).val; omega

/-- Row `p` of the input block of point `t` is row `2000 t + p` of the input array. -/
theorem rd_in (c : Dev nD) (t : Fin cfg0.N) (y : S2000x128.Idx) (h : t.val * 2000 + (y 0).val < 100000) :
    iblk0 V c 0 t y = V c main_arg0 (ix2 ⟨t.val * 2000 + (y 0).val, h⟩ (y 1) : S100000x128.Idx) := by
  show V c main_arg0 (((cfg0.win 0).blk t).view.emb y) = _
  refine congrArg _ ?_
  obtain ⟨e0, e1, e2, e3, e4, e5, e6, e7, e8⟩ := idx_facts t
  funext a; apply Fin.ext
  match a with
  | ⟨0, _⟩ => show win0_0.index t (0 : Fin 2) * 2000 + 1 * (y 0).val = t.val * 2000 + (y 0).val; omega
  | ⟨1, _⟩ => show win0_0.index t (1 : Fin 2) * 128 + 1 * (y 1).val = (y 1).val; omega

/-- The weight block is the weight array. -/
theorem rd_w (c : Dev nD) (t : Fin cfg0.N) (y : S128x128.Idx) :
    iblk0 V c 1 t y = V c main_v13 y := by
  show V c main_v13 (((cfg0.win 1).blk t).view.emb y) = _
  refine congrArg _ ?_
  obtain ⟨e0, e1, e2, e3, e4, e5, e6, e7, e8⟩ := idx_facts t
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The bias block is the bias row. -/
theorem rd_b (c : Dev nD) (t : Fin cfg0.N) (y : S1x128.Idx) :
    iblk0 V c 2 t y = V c main_v14 y := by
  show V c main_v14 (((cfg0.win 2).blk t).view.emb y) = _
  refine congrArg _ ?_
  obtain ⟨e0, e1, e2, e3, e4, e5, e6, e7, e8⟩ := idx_facts t
  funext a; apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

theorem mem_blk (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v15).slice (win0_3.rect t)).set ↔ _
  rw [View.set_slice_whole, Rect.mem_set_unit]
  exact Iff.rfl

/-- Every row lies in the block of the point `row / 2000`. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : (i 0).val / 2000 < grid0.N := by rw [N_0]; omega
  let t : Fin cfg0.N := ⟨(i 0).val / 2000, hN⟩
  have ht' : t.val = (i 0).val / 2000 := rfl
  obtain ⟨e0, e1, e2, e3, e4, e5, e6, e7, e8⟩ := idx_facts t
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

theorem linPt_congr {a a' w w' : Fin 128 → EReal} {b b' : EReal} (ha : a = a') (hw : w = w') (hb : b = b') :
    Cert.Point.linPt a w b = Cert.Point.linPt a' w' b' := by subst ha hw hb; rfl

/-- What point `t` writes back is block `t` of `lin` of the region's three input arrays. -/
theorem flushed_eq (c : Dev nD) (t : Fin cfg0.N) :
    (dat0 (F := Ideal) V c).flushed 3 t
      = ((cfg0.win 3).blk t).view.read (Elt Ideal) (Cert.Spec.lin (F := Ideal) (V c main_arg0) (V c main_v13) (V c main_v14)) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x128) hz, View.ld_unit_zero (S := S1x128) hz]
  funext j
  show k0_pay1 (iblk0 V c 0 t) (iblk0 V c 1 t) (iblk0 V c 2 t) j
    = Cert.Spec.lin (F := Ideal) (V c main_arg0) (V c main_v13) (V c main_v14) (((cfg0.win 3).blk t).view.emb j)
  obtain ⟨e0, e1, e2, e3, e4, e5, e6, e7, e8⟩ := idx_facts t
  have hj0 : (j 0).val < 2000 := (j 0).isLt
  have hb : t.val * 2000 + (j 0).val < 100000 := by omega
  have key : ∀ (p : Fin 2000) (q : Fin 128) (hb : t.val * 2000 + p.val < 100000),
      k0_pay1 (iblk0 V c 0 t) (iblk0 V c 1 t) (iblk0 V c 2 t) (ix2 p q : S2000x128.Idx)
        = Cert.Spec.lin (F := Ideal) (V c main_arg0) (V c main_v13) (V c main_v14) (ix2 ⟨t.val * 2000 + p.val, hb⟩ q : S100000x128.Idx) := by
    intro p q hb
    refine (Cert.Point.k0_pay1_apply (iblk0 V c 0 t) (iblk0 V c 1 t) (iblk0 V c 2 t) p q).trans ?_
    refine Eq.trans ?_ (Cert.Point.lin_apply (V c main_arg0) (V c main_v13) (V c main_v14) ⟨t.val * 2000 + p.val, hb⟩ q).symm
    refine linPt_congr (funext fun k => ?_) (funext fun k => ?_) ?_
    · exact rd_in V c t (ix2 p k) hb
    · exact rd_w V c t (ix2 k q)
    · exact rd_b V c t (ix2 0 q)
  have hj : j = (ix2 (j 0) (j 1) : S2000x128.Idx) := eq_ix2 j
  refine Eq.trans ?_ (congrArg (Cert.Spec.lin (F := Ideal) (V c main_arg0) (V c main_v13) (V c main_v14)) (emb_out t j hb)).symm
  refine (congrArg (k0_pay1 (iblk0 V c 0 t) (iblk0 V c 1 t) (iblk0 V c 2 t)) hj).trans ?_
  exact key (j 0) (j 1) hb

/-- After the region its output array is `lin` of the input arrays as the region found them. -/
theorem final (c : Dev nD) :
    (dat0 (F := Ideal) V c).arrAt 3 cfg0.N = Cert.Spec.lin (F := Ideal) (V c main_arg0) (V c main_v13) (V c main_v14) :=
  (dat0 (F := Ideal) V c).arrAt_eq_of_cover 3 _ (fun t _ => flushed_eq V c t) cover

end Cert.KernelIdeal.Lin0

end
-- ==== Proof.KLin2.lean ====
import proofs.«140958_j9947144258104_1_alg».proof.Proof.Gen.KernelIdeal.Frame
import proofs.«140958_j9947144258104_1_alg».proof.Proof.Spec
import proofs.«140958_j9947144258104_1_alg».proof.Proof.PointSpec
import proofs.«140958_j9947144258104_1_alg».proof.Proof.PointKernel
import Idealize.ShloMosaic.Lib.Pipeline.Value
import Idealize.ShloMosaic.Lib.ValueIdx

/-!
# The second affine layer as one array

The region runs over 50 grid points; point `t` reads rows `2000 t … 2000 t + 1999` of its input, the whole
weight matrix and the whole bias row, and writes the same rows of its output: each entry is the dot product of
a row of the input block with a column of the weights, plus the bias entry of that column.  The output blocks
tile the 100000 rows, so after the last point the output array is `lin` of the three input arrays as the region
found them.
-/

set_option maxRecDepth 16384

noncomputable section

namespace Cert.KernelIdeal.Lin2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block indices at point `t`: the input and output blocks are the `t`-th row blocks, the weights and the
    bias are read whole. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 ∧ t.val < 50 :=
  (by decide +kernel : ∀ t : Fin grid2.N, _)

/-- Row `p` of the output block of point `t` is row `2000 t + p` of the array. -/
theorem emb_out (t : Fin cfg2.N) (y : S2000x128.Idx) (h : t.val * 2000 + (y 0).val < 100000) :
    ((cfg2.win 3).blk t).view.emb y = (ix2 ⟨t.val * 2000 + (y 0).val, h⟩ (y 1) : S100000x128.Idx) := by
  obtain ⟨e0, e1, e2, e3, e4, e5, e6, e7, e8⟩ := idx_facts t
  funext a; apply Fin.ext
  match a with
  | ⟨0, _⟩ => show win2_3.index t (0 : Fin 2) * 2000 + 1 * (y 0).val = t.val * 2000 + (y 0).val; omega
  | ⟨1, _⟩ => show win2_3.index t (1 : Fin 2) * 128 + 1 * (y 1).val = (y 1).val; omega

/-- Row `p` of the input block of point `t` is row `2000 t + p` of the input array. -/
theorem rd_in (c : Dev nD) (t : Fin cfg2.N) (y : S2000x128.Idx) (h : t.val * 2000 + (y 0).val < 100000) :
    iblk2 V c 0 t y = V c main_v27 (ix2 ⟨t.val * 2000 + (y 0).val, h⟩ (y 1) : S100000x128.Idx) := by
  show V c main_v27 (((cfg2.win 0).blk t).view.emb y) = _
  refine congrArg _ ?_
  obtain ⟨e0, e1, e2, e3, e4, e5, e6, e7, e8⟩ := idx_facts t
  funext a; apply Fin.ext
  match a with
  | ⟨0, _⟩ => show win2_0.index t (0 : Fin 2) * 2000 + 1 * (y 0).val = t.val * 2000 + (y 0).val; omega
  | ⟨1, _⟩ => show win2_0.index t (1 : Fin 2) * 128 + 1 * (y 1).val = (y 1).val; omega

/-- The weight block is the weight array. -/
theorem rd_w (c : Dev nD) (t : Fin cfg2.N) (y : S128x128.Idx) :
    iblk2 V c 1 t y = V c main_v28 y := by
  show V c main_v28 (((cfg2.win 1).blk t).view.emb y) = _
  refine congrArg _ ?_
  obtain ⟨e0, e1, e2, e3, e4, e5, e6, e7, e8⟩ := idx_facts t
  funext a; apply Fin.ext
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- The bias block is the bias row. -/
theorem rd_b (c : Dev nD) (t : Fin cfg2.N) (y : S1x128.Idx) :
    iblk2 V c 2 t y = V c main_v29 y := by
  show V c main_v29 (((cfg2.win 2).blk t).view.emb y) = _
  refine congrArg _ ?_
  obtain ⟨e0, e1, e2, e3, e4, e5, e6, e7, e8⟩ := idx_facts t
  funext a; apply Fin.ext
  match a with
  | ⟨0, _⟩ => show win2_2.index t (0 : Fin 2) * 1 + 1 * (y 0).val = (y 0).val; omega
  | ⟨1, _⟩ => show win2_2.index t (1 : Fin 2) * 128 + 1 * (y 1).val = (y 1).val; omega

theorem mem_blk (t : Fin cfg2.N) (i : S100000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v30).slice (win2_3.rect t)).set ↔ _
  rw [View.set_slice_whole, Rect.mem_set_unit]
  exact Iff.rfl

/-- Every row lies in the block of the point `row / 2000`. -/
theorem cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : (i 0).val / 2000 < grid2.N := by rw [N_2]; omega
  let t : Fin cfg2.N := ⟨(i 0).val / 2000, hN⟩
  have ht' : t.val = (i 0).val / 2000 := rfl
  obtain ⟨e0, e1, e2, e3, e4, e5, e6, e7, e8⟩ := idx_facts t
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 128 ≤ (i 1).val ∧ (i 1).val < win2_3.index t (1 : Fin 2) * 128 + 128; omega

theorem linPt_congr {a a' w w' : Fin 128 → EReal} {b b' : EReal} (ha : a = a') (hw : w = w') (hb : b = b') :
    Cert.Point.linPt a w b = Cert.Point.linPt a' w' b' := by subst ha hw hb; rfl

/-- What point `t` writes back is block `t` of `lin` of the region's three input arrays. -/
theorem flushed_eq (c : Dev nD) (t : Fin cfg2.N) :
    (dat2 (F := Ideal) V c).flushed 3 t
      = ((cfg2.win 3).blk t).view.read (Elt Ideal) (Cert.Spec.lin (F := Ideal) (V c main_v27) (V c main_v28) (V c main_v29)) := by
  show (cfg2.win 3).cut (grid2.coords t) ((dat2 V c).after 3 t) = _
  rw [after2_3]
  unfold out2_3
  rw [View.canon_unit_zero hz]
  simp only [View.ld_unit_zero (S := S2000x128) hz, View.ld_unit_zero (S := S128x128) hz, View.ld_unit_zero (S := S1x128) hz]
  funext j
  show k2_pay1 (iblk2 V c 0 t) (iblk2 V c 1 t) (iblk2 V c 2 t) j
    = Cert.Spec.lin (F := Ideal) (V c main_v27) (V c main_v28) (V c main_v29) (((cfg2.win 3).blk t).view.emb j)
  obtain ⟨e0, e1, e2, e3, e4, e5, e6, e7, e8⟩ := idx_facts t
  have hj0 : (j 0).val < 2000 := (j 0).isLt
  have hb : t.val * 2000 + (j 0).val < 100000 := by omega
  have key : ∀ (p : Fin 2000) (q : Fin 128) (hb : t.val * 2000 + p.val < 100000),
      k2_pay1 (iblk2 V c 0 t) (iblk2 V c 1 t) (iblk2 V c 2 t) (ix2 p q : S2000x128.Idx)
        = Cert.Spec.lin (F := Ideal) (V c main_v27) (V c main_v28) (V c main_v29) (ix2 ⟨t.val * 2000 + p.val, hb⟩ q : S100000x128.Idx) := by
    intro p q hb
    refine (Cert.Point.k2_pay1_apply (iblk2 V c 0 t) (iblk2 V c 1 t) (iblk2 V c 2 t) p q).trans ?_
    refine Eq.trans ?_ (Cert.Point.lin_apply (V c main_v27) (V c main_v28) (V c main_v29) ⟨t.val * 2000 + p.val, hb⟩ q).symm
    refine linPt_congr (funext fun k => ?_) (funext fun k => ?_) ?_
    · exact rd_in V c t (ix2 p k) hb
    · exact rd_w V c t (ix2 k q)
    · exact rd_b V c t (ix2 0 q)
  have hj : j = (ix2 (j 0) (j 1) : S2000x128.Idx) := eq_ix2 j
  refine Eq.trans ?_ (congrArg (Cert.Spec.lin (F := Ideal) (V c main_v27) (V c main_v28) (V c main_v29)) (emb_out t j hb)).symm
  refine (congrArg (k2_pay1 (iblk2 V c 0 t) (iblk2 V c 1 t) (iblk2 V c 2 t)) hj).trans ?_
  exact key (j 0) (j 1) hb

/-- After the region its output array is `lin` of the input arrays as the region found them. -/
theorem final (c : Dev nD) :
    (dat2 (F := Ideal) V c).arrAt 3 cfg2.N = Cert.Spec.lin (F := Ideal) (V c main_v27) (V c main_v28) (V c main_v29) :=
  (dat2 (F := Ideal) V c).arrAt_eq_of_cover 3 _ (fun t _ => flushed_eq V c t) cover

end Cert.KernelIdeal.Lin2

end
-- ==== Proof.KNorm1.lean ====
import proofs.«140958_j9947144258104_1_alg».proof.Proof.Gen.KernelIdeal.Frame
import proofs.«140958_j9947144258104_1_alg».proof.Proof.Spec
import proofs.«140958_j9947144258104_1_alg».proof.Proof.PointSpec
import proofs.«140958_j9947144258104_1_alg».proof.Proof.PointKernel
import Idealize.ShloMosaic.Lib.Pipeline.Value
import Idealize.ShloMosaic.Lib.ValueIdx

/-!
# The hidden layer's scaling and activation as one array

The region runs over 50 grid points; point `t` reads rows `2000 t … 2000 t + 1999` of its input and the same
entries of the scaling column, and writes the same rows of its output: each entry is `eluPt` of the input entry
times the column's entry of its row.  The output blocks tile the 100000 rows, so after the last point the output
array is `elu (norm · ·)` of the two input arrays as the region found them.
-/

set_option maxRecDepth 16384

noncomputable section

namespace Cert.KernelIdeal.Norm1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block indices at point `t`: the input block, the column block and the output block are all the `t`-th
    row blocks. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 ∧ t.val < 50 :=
  (by decide +kernel : ∀ t : Fin grid1.N, _)

/-- Row `p` of the output block of point `t` is row `2000 t + p` of the array. -/
theorem emb_out (t : Fin cfg1.N) (y : S2000x128.Idx) (h : t.val * 2000 + (y 0).val < 100000) :
    ((cfg1.win 2).blk t).view.emb y = (ix2 ⟨t.val * 2000 + (y 0).val, h⟩ (y 1) : S100000x128.Idx) := by
  obtain ⟨e0, e1, e2, e3, e4, e5, e6⟩ := idx_facts t
  funext a; apply Fin.ext
  match a with
  | ⟨0, _⟩ => show win1_2.index t (0 : Fin 2) * 2000 + 1 * (y 0).val = t.val * 2000 + (y 0).val; omega
  | ⟨1, _⟩ => show win1_2.index t (1 : Fin 2) * 128 + 1 * (y 1).val = (y 1).val; omega

/-- Row `p` of the input block of point `t` is row `2000 t + p` of the input array. -/
theorem rd_in (c : Dev nD) (t : Fin cfg1.N) (y : S2000x128.Idx) (h : t.val * 2000 + (y 0).val < 100000) :
    iblk1 V c 0 t y = V c main_v25 (ix2 ⟨t.val * 2000 + (y 0).val, h⟩ (y 1) : S100000x128.Idx) := by
  show V c main_v25 (((cfg1.win 0).blk t).view.emb y) = _
  refine congrArg _ ?_
  obtain ⟨e0, e1, e2, e3, e4, e5, e6⟩ := idx_facts t
  funext a; apply Fin.ext
  match a with
  | ⟨0, _⟩ => show win1_0.index t (0 : Fin 2) * 2000 + 1 * (y 0).val = t.val * 2000 + (y 0).val; omega
  | ⟨1, _⟩ => show win1_0.index t (1 : Fin 2) * 128 + 1 * (y 1).val = (y 1).val; omega

/-- Entry `p` of the column block of point `t` is entry `2000 t + p` of the column. -/
theorem rd_col (c : Dev nD) (t : Fin cfg1.N) (y : S2000x1.Idx) (h : t.val * 2000 + (y 0).val < 100000) :
    iblk1 V c 1 t y = V c main_v26 (ix2 ⟨t.val * 2000 + (y 0).val, h⟩ (y 1) : S100000x1.Idx) := by
  show V c main_v26 (((cfg1.win 1).blk t).view.emb y) = _
  refine congrArg _ ?_
  obtain ⟨e0, e1, e2, e3, e4, e5, e6⟩ := idx_facts t
  funext a; apply Fin.ext
  match a with
  | ⟨0, _⟩ => show win1_1.index t (0 : Fin 2) * 2000 + 1 * (y 0).val = t.val * 2000 + (y 0).val; omega
  | ⟨1, _⟩ => show win1_1.index t (1 : Fin 2) * 1 + 1 * (y 1).val = (y 1).val; omega

theorem mem_blk (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v27).slice (win1_2.rect t)).set ↔ _
  rw [View.set_slice_whole, Rect.mem_set_unit]
  exact Iff.rfl

/-- Every row lies in the block of the point `row / 2000`. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : (i 0).val / 2000 < grid1.N := by rw [N_1]; omega
  let t : Fin cfg1.N := ⟨(i 0).val / 2000, hN⟩
  have ht' : t.val = (i 0).val / 2000 := rfl
  obtain ⟨e0, e1, e2, e3, e4, e5, e6⟩ := idx_facts t
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- What point `t` writes back is block `t` of `elu (norm · ·)` of the region's two input arrays. -/
theorem flushed_eq (c : Dev nD) (t : Fin cfg1.N) :
    (dat1 (F := Ideal) V c).flushed 2 t
      = ((cfg1.win 2).blk t).view.read (Elt Ideal) (Cert.Spec.elu (F := Ideal) (Cert.Spec.norm (F := Ideal) (V c main_v25) (V c main_v26))) := by
  show (cfg1.win 2).cut (grid1.coords t) ((dat1 V c).after 2 t) = _
  rw [after1_2]
  unfold out1_2
  rw [View.canon_unit_zero hz]
  simp only [View.ld_unit_zero (S := S2000x128) hz, View.ld_unit_zero (S := S2000x1) hz]
  funext j
  show k1_pay1 (iblk1 V c 0 t) (iblk1 V c 1 t) j
    = (Cert.Spec.elu (F := Ideal) (Cert.Spec.norm (F := Ideal) (V c main_v25) (V c main_v26))) (((cfg1.win 2).blk t).view.emb j)
  obtain ⟨e0, e1, e2, e3, e4, e5, e6⟩ := idx_facts t
  have hj0 : (j 0).val < 2000 := (j 0).isLt
  have hb : t.val * 2000 + (j 0).val < 100000 := by omega
  have key : ∀ (p : Fin 2000) (q : Fin 128) (hb : t.val * 2000 + p.val < 100000),
      k1_pay1 (iblk1 V c 0 t) (iblk1 V c 1 t) (ix2 p q : S2000x128.Idx)
        = (Cert.Spec.elu (F := Ideal) (Cert.Spec.norm (F := Ideal) (V c main_v25) (V c main_v26))) (ix2 ⟨t.val * 2000 + p.val, hb⟩ q : S100000x128.Idx) := by
    intro p q hb
    refine (Cert.Point.k1_pay1_apply (iblk1 V c 0 t) (iblk1 V c 1 t) p q).trans ?_
    refine Eq.trans ?_ (Cert.Point.elu_apply (Cert.Spec.norm (F := Ideal) (V c main_v25) (V c main_v26)) ⟨t.val * 2000 + p.val, hb⟩ q).symm
    refine congrArg Cert.Point.eluPt ?_
    refine Eq.trans ?_ (Cert.Point.norm_apply (V c main_v25) (V c main_v26) ⟨t.val * 2000 + p.val, hb⟩ q).symm
    exact congrArg₂ (· * ·) (rd_in V c t (ix2 p q) hb) (rd_col V c t (ix2 p (0 : Fin 1)) hb)
  have hj : j = (ix2 (j 0) (j 1) : S2000x128.Idx) := eq_ix2 j
  refine Eq.trans ?_ (congrArg (Cert.Spec.elu (F := Ideal) (Cert.Spec.norm (F := Ideal) (V c main_v25) (V c main_v26))) (emb_out t j hb)).symm
  refine (congrArg (k1_pay1 (iblk1 V c 0 t) (iblk1 V c 1 t)) hj).trans ?_
  exact key (j 0) (j 1) hb

/-- After the region its output array is `elu (norm · ·)` of the input arrays as the region found them. -/
theorem final (c : Dev nD) :
    (dat1 (F := Ideal) V c).arrAt 2 cfg1.N = Cert.Spec.elu (F := Ideal) (Cert.Spec.norm (F := Ideal) (V c main_v25) (V c main_v26)) :=
  (dat1 (F := Ideal) V c).arrAt_eq_of_cover 2 _ (fun t _ => flushed_eq V c t) cover

end Cert.KernelIdeal.Norm1

end
-- ==== Proof.KNorm3.lean ====
import proofs.«140958_j9947144258104_1_alg».proof.Proof.Gen.KernelIdeal.Frame
import proofs.«140958_j9947144258104_1_alg».proof.Proof.Spec
import proofs.«140958_j9947144258104_1_alg».proof.Proof.PointSpec
import proofs.«140958_j9947144258104_1_alg».proof.Proof.PointKernel
import Idealize.ShloMosaic.Lib.Pipeline.Value
import Idealize.ShloMosaic.Lib.ValueIdx

/-!
# The output layer's scaling as one array

The region runs over 50 grid points; point `t` reads rows `2000 t … 2000 t + 1999` of its input and the same
entries of the scaling column, and writes the same rows of its output: each entry is the input entry times the
column's entry of its row.  The output blocks tile the 100000 rows, so after the last point the output array is
`norm` of the two input arrays as the region found them.
-/

set_option maxRecDepth 16384

noncomputable section

namespace Cert.KernelIdeal.Norm3

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block indices at point `t`: the input block, the column block and the output block are all the `t`-th
    row blocks. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 ∧ t.val < 50 :=
  (by decide +kernel : ∀ t : Fin grid3.N, _)

/-- Row `p` of the output block of point `t` is row `2000 t + p` of the array. -/
theorem emb_out (t : Fin cfg3.N) (y : S2000x128.Idx) (h : t.val * 2000 + (y 0).val < 100000) :
    ((cfg3.win 2).blk t).view.emb y = (ix2 ⟨t.val * 2000 + (y 0).val, h⟩ (y 1) : S100000x128.Idx) := by
  obtain ⟨e0, e1, e2, e3, e4, e5, e6⟩ := idx_facts t
  funext a; apply Fin.ext
  match a with
  | ⟨0, _⟩ => show win3_2.index t (0 : Fin 2) * 2000 + 1 * (y 0).val = t.val * 2000 + (y 0).val; omega
  | ⟨1, _⟩ => show win3_2.index t (1 : Fin 2) * 128 + 1 * (y 1).val = (y 1).val; omega

/-- Row `p` of the input block of point `t` is row `2000 t + p` of the input array. -/
theorem rd_in (c : Dev nD) (t : Fin cfg3.N) (y : S2000x128.Idx) (h : t.val * 2000 + (y 0).val < 100000) :
    iblk3 V c 0 t y = V c main_v40 (ix2 ⟨t.val * 2000 + (y 0).val, h⟩ (y 1) : S100000x128.Idx) := by
  show V c main_v40 (((cfg3.win 0).blk t).view.emb y) = _
  refine congrArg _ ?_
  obtain ⟨e0, e1, e2, e3, e4, e5, e6⟩ := idx_facts t
  funext a; apply Fin.ext
  match a with
  | ⟨0, _⟩ => show win3_0.index t (0 : Fin 2) * 2000 + 1 * (y 0).val = t.val * 2000 + (y 0).val; omega
  | ⟨1, _⟩ => show win3_0.index t (1 : Fin 2) * 128 + 1 * (y 1).val = (y 1).val; omega

/-- Entry `p` of the column block of point `t` is entry `2000 t + p` of the column. -/
theorem rd_col (c : Dev nD) (t : Fin cfg3.N) (y : S2000x1.Idx) (h : t.val * 2000 + (y 0).val < 100000) :
    iblk3 V c 1 t y = V c main_v41 (ix2 ⟨t.val * 2000 + (y 0).val, h⟩ (y 1) : S100000x1.Idx) := by
  show V c main_v41 (((cfg3.win 1).blk t).view.emb y) = _
  refine congrArg _ ?_
  obtain ⟨e0, e1, e2, e3, e4, e5, e6⟩ := idx_facts t
  funext a; apply Fin.ext
  match a with
  | ⟨0, _⟩ => show win3_1.index t (0 : Fin 2) * 2000 + 1 * (y 0).val = t.val * 2000 + (y 0).val; omega
  | ⟨1, _⟩ => show win3_1.index t (1 : Fin 2) * 1 + 1 * (y 1).val = (y 1).val; omega

theorem mem_blk (t : Fin cfg3.N) (i : S100000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v42).slice (win3_2.rect t)).set ↔ _
  rw [View.set_slice_whole, Rect.mem_set_unit]
  exact Iff.rfl

/-- Every row lies in the block of the point `row / 2000`. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : (i 0).val / 2000 < grid3.N := by rw [N_3]; omega
  let t : Fin cfg3.N := ⟨(i 0).val / 2000, hN⟩
  have ht' : t.val = (i 0).val / 2000 := rfl
  obtain ⟨e0, e1, e2, e3, e4, e5, e6⟩ := idx_facts t
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

/-- What point `t` writes back is block `t` of `norm` of the region's two input arrays. -/
theorem flushed_eq (c : Dev nD) (t : Fin cfg3.N) :
    (dat3 (F := Ideal) V c).flushed 2 t
      = ((cfg3.win 2).blk t).view.read (Elt Ideal) (Cert.Spec.norm (F := Ideal) (V c main_v40) (V c main_v41)) := by
  show (cfg3.win 2).cut (grid3.coords t) ((dat3 V c).after 2 t) = _
  rw [after3_2]
  unfold out3_2
  rw [View.canon_unit_zero hz]
  simp only [View.ld_unit_zero (S := S2000x128) hz, View.ld_unit_zero (S := S2000x1) hz]
  funext j
  show k3_pay1 (iblk3 V c 0 t) (iblk3 V c 1 t) j
    = (Cert.Spec.norm (F := Ideal) (V c main_v40) (V c main_v41)) (((cfg3.win 2).blk t).view.emb j)
  obtain ⟨e0, e1, e2, e3, e4, e5, e6⟩ := idx_facts t
  have hj0 : (j 0).val < 2000 := (j 0).isLt
  have hb : t.val * 2000 + (j 0).val < 100000 := by omega
  have key : ∀ (p : Fin 2000) (q : Fin 128) (hb : t.val * 2000 + p.val < 100000),
      k3_pay1 (iblk3 V c 0 t) (iblk3 V c 1 t) (ix2 p q : S2000x128.Idx)
        = (Cert.Spec.norm (F := Ideal) (V c main_v40) (V c main_v41)) (ix2 ⟨t.val * 2000 + p.val, hb⟩ q : S100000x128.Idx) := by
    intro p q hb
    refine (Cert.Point.k3_pay1_apply (iblk3 V c 0 t) (iblk3 V c 1 t) p q).trans ?_
    refine Eq.trans ?_ (Cert.Point.norm_apply (V c main_v40) (V c main_v41) ⟨t.val * 2000 + p.val, hb⟩ q).symm
    exact congrArg₂ (· * ·) (rd_in V c t (ix2 p q) hb) (rd_col V c t (ix2 p (0 : Fin 1)) hb)
  have hj : j = (ix2 (j 0) (j 1) : S2000x128.Idx) := eq_ix2 j
  refine Eq.trans ?_ (congrArg (Cert.Spec.norm (F := Ideal) (V c main_v40) (V c main_v41)) (emb_out t j hb)).symm
  refine (congrArg (k3_pay1 (iblk3 V c 0 t) (iblk3 V c 1 t)) hj).trans ?_
  exact key (j 0) (j 1) hb

/-- After the region its output array is `norm` of the input arrays as the region found them. -/
theorem final (c : Dev nD) :
    (dat3 (F := Ideal) V c).arrAt 2 cfg3.N = Cert.Spec.norm (F := Ideal) (V c main_v40) (V c main_v41) :=
  (dat3 (F := Ideal) V c).arrAt_eq_of_cover 2 _ (fun t _ => flushed_eq V c t) cover

end Cert.KernelIdeal.Norm3

end
-- ==== Proof.KValue.lean ====
import proofs.«140958_j9947144258104_1_alg».proof.Proof.KRun
import proofs.«140958_j9947144258104_1_alg».proof.Proof.KFold
import proofs.«140958_j9947144258104_1_alg».proof.Proof.KLin0
import proofs.«140958_j9947144258104_1_alg».proof.Proof.KLin2
import proofs.«140958_j9947144258104_1_alg».proof.Proof.KNorm1
import proofs.«140958_j9947144258104_1_alg».proof.Proof.KNorm3
import proofs.«140958_j9947144258104_1_alg».proof.Proof.PointSpec
import proofs.«140958_j9947144258104_1_alg».proof.Proof.PointKernel

/-!
# The kernel program computes `final`

The contents of the result buffer at the last segment boundary, followed back through the ten segments:
the fourth region leaves `norm` of its two inputs, which the host stretch before it made by `agg` from the third
region's output and by reshaping the inverse degrees; the third region leaves `lin` of the second region's output;
the second leaves `elu (norm …)` of the first aggregate; the first leaves `lin` of the node features.  The kernel
program reshapes a vector to a one-row or one-column matrix where the reference broadcasts it: the same matrix.
-/

set_option maxRecDepth 16384

noncomputable section

namespace Cert.KernelIdeal.KValue

open Cert.KernelIdeal Cert.KernelIdeal.Gen Cert.KernelIdeal.KFold
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- A vector reshaped to one row is the vector broadcast along a new leading axis. -/
theorem bRowK_eq (b : (⟨S128, .f32⟩ : BufTy).Contents (Elt Ideal)) : bRowK b = Cert.Spec.bRow (F := Ideal) b := by
  funext i
  obtain ⟨z, q, rfl⟩ : ∃ (z : Fin 1) (q : Fin 128), i = (ix2 z q : S1x128.Idx) := ⟨i 0, i 1, eq_ix2 i⟩
  obtain rfl : z = 0 := Subsingleton.elim _ _
  exact (Cert.Point.rowCast_apply b q).trans (Cert.Point.bRow_apply b q).symm

/-- A vector reshaped to one column is the vector broadcast along a new trailing axis. -/
theorem dColK_eq (d : (⟨S100000, .f32⟩ : BufTy).Contents (Elt Ideal)) : dColK d = Cert.Spec.dCol (F := Ideal) d := by
  funext i
  obtain ⟨r, z, rfl⟩ : ∃ (r : Fin 100000) (z : Fin 1), i = (ix2 r z : S100000x1.Idx) := ⟨i 0, i 1, eq_ix2 i⟩
  obtain rfl : z = 0 := Subsingleton.elim _ _
  exact (Cert.Point.colCast_apply d r).trans (Cert.Point.dCol_apply d r).symm

/-- The first region's output: the first affine layer of the node features. -/
theorem w4_v15 (c : Dev nD) : W4 m ρ c (Proc.devRef .tc main_v15)
    = Cert.Spec.lin (F := Ideal) (m ((c : Thread nD τ).loc main_arg0)) (Cert.Spec.wT (m ((c : Thread nD τ).loc main_arg2)))
        (Cert.Spec.bRow (m ((c : Thread nD τ).loc main_arg3))) := by
  refine (W4_arr m ρ c 3).trans ?_
  refine (Lin0.final (V3 m ρ) c).trans ?_
  show Cert.Spec.lin (F := Ideal) (W3 m ρ c (Proc.devRef .tc main_arg0)) (W3 m ρ c (Proc.devRef .tc main_v13)) (W3 m ρ c (Proc.devRef .tc main_v14)) = _
  rw [w3_arg0 m ρ c, w3_v13 m ρ c, w3_v14 m ρ c, bRowK_eq]

/-- The second region's output: the hidden layer. -/
theorem w6_v27 (c : Dev nD) : W6 m ρ c (Proc.devRef .tc main_v27)
    = Cert.Spec.hidden (F := Ideal) (m ((c : Thread nD τ).loc main_arg0)) (m ((c : Thread nD τ).loc main_arg1))
        (m ((c : Thread nD τ).loc main_arg2)) (m ((c : Thread nD τ).loc main_arg3)) := by
  refine (W6_arr m ρ c 2).trans ?_
  refine (Norm1.final (V5 m ρ) c).trans ?_
  show Cert.Spec.elu (F := Ideal) (Cert.Spec.norm (F := Ideal) (W5 m ρ c (Proc.devRef .tc main_v25)) (W5 m ρ c (Proc.devRef .tc main_v26))) = _
  rw [w5_v25 m ρ c, w5_v26 m ρ c, w4_v15 m ρ c, dColK_eq]
  rfl

/-- The third region's output: the second affine layer of the hidden layer. -/
theorem w8_v30 (c : Dev nD) : W8 m ρ c (Proc.devRef .tc main_v30)
    = Cert.Spec.lin (F := Ideal) (Cert.Spec.hidden (F := Ideal) (m ((c : Thread nD τ).loc main_arg0)) (m ((c : Thread nD τ).loc main_arg1))
        (m ((c : Thread nD τ).loc main_arg2)) (m ((c : Thread nD τ).loc main_arg3)))
        (Cert.Spec.wT (m ((c : Thread nD τ).loc main_arg4))) (Cert.Spec.bRow (m ((c : Thread nD τ).loc main_arg5))) := by
  refine (W8_arr m ρ c 3).trans ?_
  refine (Lin2.final (V7 m ρ) c).trans ?_
  show Cert.Spec.lin (F := Ideal) (W7 m ρ c (Proc.devRef .tc main_v27)) (W7 m ρ c (Proc.devRef .tc main_v28)) (W7 m ρ c (Proc.devRef .tc main_v29)) = _
  rw [w7_v27 m ρ c, w7_v28 m ρ c, w7_v29 m ρ c, w6_v27 m ρ c, bRowK_eq]

/-- The result buffer ends at `final` of the six argument arrays. -/
theorem w10_v42 (c : Dev nD) : W10 m ρ c (Proc.devRef .tc main_v42)
    = Cert.Spec.final (F := Ideal) (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  refine (W10_arr m ρ c 2).trans ?_
  refine (Norm3.final (V9 m ρ) c).trans ?_
  show Cert.Spec.norm (F := Ideal) (W9 m ρ c (Proc.devRef .tc main_v40)) (W9 m ρ c (Proc.devRef .tc main_v41)) = _
  rw [w9_v40 m ρ c, w9_v41 m ρ c, w8_v30 m ρ c, dColK_eq]
  rfl

end Cert.KernelIdeal.KValue

end
-- ==== Proof.lean ====
/-
  The certificate's five claims.

  Both programs compute a two-layer graph convolution with mean aggregation (Proof/Spec.lean, `final`).  The
  reference is a line of host operations whose composed term is `final` by unfolding (Proof/RefRun.lean).  The
  kernel program runs its two affine layers and its two degree normalizations (the first followed by ELU) as
  pipelined regions over 2000-row blocks and keeps the gathers and scatter-adds between them on the host, spelt
  as in the reference; each region's output array is the reference's stage of the region's inputs, entry by entry
  (Proof/KLin0.lean, KNorm1.lean, KLin2.lean, KNorm3.lean): a matrix product into a zero accumulator is the
  contraction sum, a change of float format is the identity, `exp z − 1` is `expm1 z`, and a vector reshaped to a
  row or column is that vector broadcast.  No step needs the inputs to be finite.  The frames of the two kernel
  programs are generated; the reference's frame is its run with the result dropped; the idealization rewrote no
  operation.
-/
import proofs.«140958_j9947144258104_1_alg».proof.Defs
import proofs.«140958_j9947144258104_1_alg».proof.Proof.Gen.Kernel
import proofs.«140958_j9947144258104_1_alg».proof.Proof.Gen.Kernel.Skeleton
import proofs.«140958_j9947144258104_1_alg».proof.Proof.Gen.Kernel.Launch
import proofs.«140958_j9947144258104_1_alg».proof.Proof.Gen.Kernel.Points
import proofs.«140958_j9947144258104_1_alg».proof.Proof.Gen.Kernel.Frame
import proofs.«140958_j9947144258104_1_alg».proof.Proof.Gen.KernelIdeal
import proofs.«140958_j9947144258104_1_alg».proof.Proof.Gen.KernelIdeal.Skeleton
import proofs.«140958_j9947144258104_1_alg».proof.Proof.Gen.KernelIdeal.Launch
import proofs.«140958_j9947144258104_1_alg».proof.Proof.Gen.KernelIdeal.Points
import proofs.«140958_j9947144258104_1_alg».proof.Proof.Gen.KernelIdeal.Frame
import proofs.«140958_j9947144258104_1_alg».proof.Proof.Gen.ReferenceIdeal
import proofs.«140958_j9947144258104_1_alg».proof.Proof.Gen.Pre_finite_inputs
import proofs.«140958_j9947144258104_1_alg».proof.Proof.RefRun
import proofs.«140958_j9947144258104_1_alg».proof.Proof.KRun
import proofs.«140958_j9947144258104_1_alg».proof.Proof.KValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- From memories that agree on the arguments both programs end with `final` of the arguments in their result
    buffers. -/
theorem algebraic : Cert.algebraic_KernelIdeal_ReferenceIdeal := by
  intro m ρ m' ρ' _ hagree
  refine ⟨fun c => Cert.Spec.final (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KValue.w10_v42 m ρ c), (h c).2⟩)
      (Cert.KernelIdeal.KRun.run_valued m ρ)
  · refine (θ_run Cert.ReferenceIdeal.defs _ _).mono (fun r h c => ⟨?_, (h c).2⟩)
      (Cert.ReferenceIdeal.RefValue.run (F := Ideal) m' ρ')
    rw [(h c).1, (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
